-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1 : Shape := ⟨1, ![1]⟩
abbrev S1700000x1 : Shape := ⟨2, ![1700000, 1]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S2000x128 : Shape := ⟨2, ![2000, 128]⟩
abbrev S2000x40 : Shape := ⟨2, ![2000, 40]⟩
abbrev S2000 : Shape := ⟨1, ![2000]⟩
abbrev S2000x1 : Shape := ⟨2, ![2000, 1]⟩

abbrev nBuf : Space → Nat
  | .hbm => 121
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000, .i1⟩
  | .hbm, ⟨13, _⟩ => ⟨S_, .f32⟩
  | .hbm, ⟨14, _⟩ => ⟨S_, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1700000, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1700000, .f32⟩
  | .hbm, ⟨63, _⟩ => ⟨S1700000, .f32⟩
  | .hbm, ⟨64, _⟩ => ⟨S1700000, .f32⟩
  | .hbm, ⟨65, _⟩ => ⟨S1700000, .f32⟩
  | .hbm, ⟨66, _⟩ => ⟨S1700000, .f32⟩
  | .hbm, ⟨67, _⟩ => ⟨S_, .f32⟩
  | .hbm, ⟨68, _⟩ => ⟨S1700000, .f32⟩
  | .hbm, ⟨69, _⟩ => ⟨S1700000, .i1⟩
  | .hbm, ⟨70, _⟩ => ⟨S_, .f32⟩
  | .hbm, ⟨71, _⟩ => ⟨S_, .f32⟩
  | .hbm, ⟨72, _⟩ => ⟨S1700000, .f32⟩
  | .hbm, ⟨73, _⟩ => ⟨S1700000, .f32⟩
  | .hbm, ⟨74, _⟩ => ⟨S_, .i32⟩
  | .hbm, ⟨75, _⟩ => ⟨S1, .i32⟩
  | .hbm, ⟨76, _⟩ => ⟨S_, .f32⟩
  | .hbm, ⟨77, _⟩ => ⟨S100000, .f32⟩
  | .hbm, ⟨78, _⟩ => ⟨S1700000, .f32⟩
  | .hbm, ⟨79, _⟩ => ⟨S100000, .i32⟩
  | .hbm, ⟨80, _⟩ => ⟨S1700000, .i32⟩
  | .hbm, ⟨81, _⟩ => ⟨S1700000, .i32⟩
  | .hbm, ⟨82, _⟩ => ⟨S1700000x1, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1700000x1, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x128, .f32⟩
  | .hbm, ⟨108, _⟩ => ⟨S1700000x128, .f32⟩
  | .hbm, ⟨109, _⟩ => ⟨S1700000x128, .f32⟩
  | .hbm, ⟨110, _⟩ => ⟨S_, .f32⟩
  | .hbm, ⟨111, _⟩ => ⟨S100000x128, .f32⟩
  | .hbm, ⟨112, _⟩ => ⟨S1700000x1, .i32⟩
  | .hbm, ⟨113, _⟩ => ⟨S100000x128, .f32⟩
  | .hbm, ⟨114, _⟩ => ⟨S_, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S1x40, .f32⟩
  | .hbm, ⟨120, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x40, .f32⟩
  | .local _ .vmem, ⟨11, _⟩ => ⟨S1x40, .f32⟩
  | .local _ .vmem, ⟨12, _⟩ => ⟨S2000x40, .f32⟩
  | .local _ .vmem, ⟨13, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_v40 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_v41 : Ref sig .tc := ⟨.hbm, 73, rfl⟩
abbrev main_c_13 : Ref sig .tc := ⟨.hbm, 74, rfl⟩
abbrev main_v42 : Ref sig .tc := ⟨.hbm, 75, rfl⟩
abbrev main_cst_14 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_15 : Ref sig .tc := ⟨.hbm, 83, rfl⟩
abbrev main_v49 : Ref sig .tc := ⟨.hbm, 84, rfl⟩
abbrev main_v50 : Ref sig .tc := ⟨.hbm, 85, rfl⟩
abbrev main_c_16 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_18 : Ref sig .tc := ⟨.hbm, 99, rfl⟩
abbrev main_v62 : Ref sig .tc := ⟨.hbm, 100, rfl⟩
abbrev main_v63 : Ref sig .tc := ⟨.hbm, 101, rfl⟩
abbrev main_c_19 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_21 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  reducesTo_S1700000_S_d0 : S1700000.ReducesTo [0] S_
  h_S_ : 0 < S_.numel
  bcast_S_S1700000 : S_.BroadcastsInDim S1700000 (![] : Fin 0 → Fin S1700000.rank)
  bcast_S_S1 : S_.BroadcastsInDim S1 (![] : Fin 0 → Fin S1.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S1700000_S1_S100000_0_n_0_0_wf : ScatterDims.WF S1700000 S1 S100000 [0] [] [0] 0
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x40.size a ≤ S128x40.size a
  hwx0_7 : ∀ i : grid0.Coords, EltTy.bits .f32 = 32 ∨ (Rect.block (s := S128x40) S128x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x40.size a ≤ S100000x40.size a
  hwx0_9 : ∀ i : grid0.Coords, EltTy.bits .f32 = 32 ∨ (Rect.block (s := S100000x40) S2000x40.size (cc0_transform_9 i) (hinb0_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S1700000_S1_S100000_0_n_0_0 : ScatterDims S1700000 S1 S100000 where
  updateWindowDims := [0]
  insertedWindowDims := []
  scatterDimsToOperandDims := [0]
  indexVectorDim := 0
  wf := scatter_S1700000_S1_S100000_0_n_0_0_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v76) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v77) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v78) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v79) S2000x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1 : Shape := ⟨1, ![1]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S1600000, .i1⟩
  | 13 => ⟨S_, .f32⟩
  | 14 => ⟨S_, .f32⟩
  | 15 => ⟨S1600000, .f32⟩
  | 16 => ⟨S1600000, .f32⟩
  | 17 => ⟨S1600000, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .f32⟩
  | 55 => ⟨S100000, .f32⟩
  | 56 => ⟨S1700000, .f32⟩
  | 57 => ⟨S_, .f32⟩
  | 58 => ⟨S_, .f32⟩
  | 59 => ⟨S_, .f32⟩
  | 60 => ⟨S_, .f32⟩
  | 61 => ⟨S_, .f32⟩
  | 62 => ⟨S1700000, .f32⟩
  | 63 => ⟨S1700000, .f32⟩
  | 64 => ⟨S1700000, .f32⟩
  | 65 => ⟨S1700000, .f32⟩
  | 66 => ⟨S1700000, .f32⟩
  | 67 => ⟨S_, .f32⟩
  | 68 => ⟨S1700000, .f32⟩
  | 69 => ⟨S1700000, .i1⟩
  | 70 => ⟨S_, .f32⟩
  | 71 => ⟨S_, .f32⟩
  | 72 => ⟨S1700000, .f32⟩
  | 73 => ⟨S1700000, .f32⟩
  | 74 => ⟨S_, .i32⟩
  | 75 => ⟨S1, .i32⟩
  | 76 => ⟨S_, .f32⟩
  | 77 => ⟨S100000, .f32⟩
  | 78 => ⟨S1700000, .f32⟩
  | 79 => ⟨S100000, .i32⟩
  | 80 => ⟨S1700000, .i32⟩
  | 81 => ⟨S1700000, .i32⟩
  | 82 => ⟨S100000x128, .f32⟩
  | 83 => ⟨S1700000x1, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x128, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S100000x128, .f32⟩
  | 100 => ⟨S100000x128, .f32⟩
  | 101 => ⟨S1700000x1, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x40, .f32⟩
  | 2 => ⟨S1x40, .f32⟩
  | 3 => ⟨S100000x40, .f32⟩
  | 4 => ⟨S100000x40, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x40, .f32⟩
  | 12 => ⟨S100000x40, .f32⟩
  | 13 => ⟨S100000x40, .f32⟩
  | 14 => ⟨S_, .f32⟩
  | 15 => ⟨S100000, .f32⟩
  | 16 => ⟨S100000x1, .f32⟩
  | 17 => ⟨S100000x1, .f32⟩
  | 18 => ⟨S100000x40, .f32⟩
  | 19 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_v40 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_v41 : Ref sig .tc := ⟨.hbm, 73, rfl⟩
abbrev main_c_13 : Ref sig .tc := ⟨.hbm, 74, rfl⟩
abbrev main_v42 : Ref sig .tc := ⟨.hbm, 75, rfl⟩
abbrev main_cst_14 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_18 : Ref sig .tc := ⟨.hbm, 102, rfl⟩
abbrev main_v65 : Ref sig .tc := ⟨.hbm, 103, rfl⟩
abbrev main_v66 : Ref sig .tc := ⟨.hbm, 104, rfl⟩
abbrev main_c_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_21 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call4_cst : Ref sig .tc := ⟨.hbm, 126, rfl⟩
abbrev main_call4_v0 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call5_cst : Ref sig .tc := ⟨.hbm, 133, rfl⟩
abbrev main_call5_v0 : Ref sig .tc := ⟨.hbm, 134, rfl⟩
abbrev main_call5_cst_0 : Ref sig .tc := ⟨.hbm, 135, rfl⟩
abbrev main_call5_v1 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_v6 : Ref sig .tc := ⟨.hbm, 141, rfl⟩
abbrev main_call5_cst_1 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_v90 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  reducesTo_S1700000_S_d0 : S1700000.ReducesTo [0] S_
  h_S_ : 0 < S_.numel
  bcast_S_S1700000 : S_.BroadcastsInDim S1700000 (![] : Fin 0 → Fin S1700000.rank)
  bcast_S_S1 : S_.BroadcastsInDim S1 (![] : Fin 0 → Fin S1.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S1700000_S1_S100000_0_n_0_0_wf : ScatterDims.WF S1700000 S1 S100000 [0] [] [0] 0
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S1700000_S1_S100000_0_n_0_0 : ScatterDims S1700000 S1 S100000 where
  updateWindowDims := [0]
  insertedWindowDims := []
  scatterDimsToOperandDims := [0]
  indexVectorDim := 0
  wf := scatter_S1700000_S1_S100000_0_n_0_0_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.ReferenceFold.lean ====
/-
  The reference's run, read a stretch at a time.

  @main of the reference is a line of 140 host operations. It falls into four stretches: the graph normalisation (the edge
  weights of the rescaled Laplacian and the two index columns with the self loops appended: operations 1–74), the two
  propagations with the first two weight products (75–113), the head up to the logits (the third product, bias, positive part and classifier: 114–125) and
  the log-softmax (126–140). Each stretch is read over an ARBITRARY valuation of the buffers: what it leaves in the few
  buffers the next stretch reads is the named stage of those buffers' values, provided the buffers it reads hold the named
  stages before. Chained, the result buffer after the whole line is the last stage of the arguments.
-/
import proofs.«125074_j73753178407276_1_alg».proof.Proof.ReferenceRun
import proofs.«125074_j73753178407276_1_alg».proof.Proof.ReferenceRead
import proofs.«125074_j73753178407276_1_alg».proof.Proof.LibFoldRead

noncomputable section

namespace Cert.ReferenceIdeal.Fold

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The normalisation: operations 1–74. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_v1 main_v3 main_v4 (cmpi .eq : (⟨S1600000, .i32⟩ : BufTy).Contents (Elt F) → (⟨S1600000, .i32⟩ : BufTy).Contents (Elt F) → (⟨S1600000, .i1⟩ : BufTy).Contents (Elt F)),
    nullary main_cst (constant S_ .f32 0x00000000#32),
    nullary main_cst_0 (constant S_ .f32 0x3F800000#32),
    TRef.unary (TRef.of (T := ⟨S_, .f32⟩) main_cst) (TRef.of (T := ⟨S1600000, .f32⟩) main_call0_v0) (broadcastInDim S1600000 ![] bcast_S_S1600000),
    TRef.unary (TRef.of (T := ⟨S_, .f32⟩) main_cst_0) (TRef.of (T := ⟨S1600000, .f32⟩) main_call0_v1) (broadcastInDim S1600000 ![] bcast_S_S1600000),
    TRef.ternary (TRef.of (T := ⟨S1600000, .i1⟩) main_v4) (TRef.of (T := ⟨S1600000, .f32⟩) main_call0_v0) (TRef.of (T := ⟨S1600000, .f32⟩) main_call0_v1) (TRef.of (T := ⟨S1600000, .f32⟩) main_v5) select,
    unary main_v5 main_v6 (id : (⟨S1600000, .f32⟩ : BufTy).Contents (Elt F) → (⟨S1600000, .f32⟩ : BufTy).Contents (Elt F)),
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    unary main_v1 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0xBF000000#32),
    unary main_cst_3 main_v12 (broadcastInDim S100000 ![] bcast_S_S100000 : (⟨S_, .f32⟩ : BufTy).Contents (Elt F) → (⟨S100000, .f32⟩ : BufTy).Contents (Elt F)),
    binary main_v9 main_v12 main_v13 (Host.powf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v11) (TRef.of (T := ⟨S100000, .f32⟩) main_v13) (TRef.of (T := ⟨S100000, .f32⟩) main_call1_v1) (TRef.of (T := ⟨S100000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v21 main_v22 (Host.negf : (⟨S1600000, .f32⟩ : BufTy).Contents (Elt F) → (⟨S1600000, .f32⟩ : BufTy).Contents (Elt F)),
    binary main_v22 main_v6 main_v23 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v26 (broadcastInDim S1600000 ![] bcast_S_S1600000 : (⟨S_, .i32⟩ : BufTy).Contents (Elt F) → (⟨S1600000, .i32⟩ : BufTy).Contents (Elt F)),
    binary main_v3 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v14 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v23 main_v30 main_v31 (mulf : (⟨S1600000, .f32⟩ : BufTy).Contents (Elt F) → (⟨S1600000, .f32⟩ : BufTy).Contents (Elt F) → (⟨S1600000, .f32⟩ : BufTy).Contents (Elt F)),
    nullary main_cst_8 (constant S_ .f32 0x3F800000#32),
    unary main_cst_8 main_v32 (broadcastInDim S100000 ![] bcast_S_S100000 : (⟨S_, .f32⟩ : BufTy).Contents (Elt F) → (⟨S100000, .f32⟩ : BufTy).Contents (Elt F)),
    binary main_v31 main_v32 main_v33 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_9 (constant S_ .f32 0xFF800000#32),
    binary main_v33 main_cst_9 main_v34 ((fun x v => Host.reduce FloatOps.maximumf x v reducesTo_S1700000_S_d0 h_S_) : (⟨S1700000, .f32⟩ : BufTy).Contents (Elt F) → (⟨S_, .f32⟩ : BufTy).Contents (Elt F) → (⟨S_, .f32⟩ : BufTy).Contents (Elt F)),
    nullary main_cst_10 (constant S_ .f32 0x40000000#32),
    binary main_cst_10 main_v34 main_v35 (mulf : (⟨S_, .f32⟩ : BufTy).Contents (Elt F) → (⟨S_, .f32⟩ : BufTy).Contents (Elt F) → (⟨S_, .f32⟩ : BufTy).Contents (Elt F)),
    nullary main_cst_11 (constant S_ .f32 0x40000000#32),
    unary main_cst_11 main_v36 (broadcastInDim S1700000 ![] bcast_S_S1700000 : (⟨S_, .f32⟩ : BufTy).Contents (Elt F) → (⟨S1700000, .f32⟩ : BufTy).Contents (Elt F)),
    binary main_v36 main_v33 main_v37 (mulf : (⟨S1700000, .f32⟩ : BufTy).Contents (Elt F) → (⟨S1700000, .f32⟩ : BufTy).Contents (Elt F) → (⟨S1700000, .f32⟩ : BufTy).Contents (Elt F)),
    unary main_v35 main_v38 (broadcastInDim S1700000 ![] bcast_S_S1700000 : (⟨S_, .f32⟩ : BufTy).Contents (Elt F) → (⟨S1700000, .f32⟩ : BufTy).Contents (Elt F)),
    binary main_v37 main_v38 main_v39 (Host.divf : (⟨S1700000, .f32⟩ : BufTy).Contents (Elt F) → (⟨S1700000, .f32⟩ : BufTy).Contents (Elt F) → (⟨S1700000, .f32⟩ : BufTy).Contents (Elt F)),
    TRef.unary (TRef.of (T := ⟨S1700000, .f32⟩) main_v39) (TRef.of (T := ⟨S1700000, .f32⟩) main_call2_v0) Host.absf,
    TRef.nullary (TRef.of (T := ⟨S_, .f32⟩) main_call2_cst) (constant S_ .f32 0x7F800000#32),
    TRef.unary (TRef.of (T := ⟨S_, .f32⟩) main_call2_cst) (TRef.of (T := ⟨S1700000, .f32⟩) main_call2_v1) (broadcastInDim S1700000 ![] bcast_S_S1700000),
    TRef.binary (TRef.of (T := ⟨S1700000, .f32⟩) main_call2_v0) (TRef.of (T := ⟨S1700000, .f32⟩) main_call2_v1) (TRef.of (T := ⟨S1700000, .i1⟩) main_v40) (cmpf .oeq),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S1700000, .f32⟩) main_call3_v1) (broadcastInDim S1700000 ![] bcast_S_S1700000),
    TRef.ternary (TRef.of (T := ⟨S1700000, .i1⟩) main_v40) (TRef.of (T := ⟨S1700000, .f32⟩) main_call3_v1) (TRef.of (T := ⟨S1700000, .f32⟩) main_v39) (TRef.of (T := ⟨S1700000, .f32⟩) main_v41) select,
    nullary main_c_13 (constantI S_ 32 1600000#32),
    unary main_c_13 main_v42 (broadcastInDim S1 ![] bcast_S_S1 : (⟨S_, .i32⟩ : BufTy).Contents (Elt F) → (⟨S1, .i32⟩ : BufTy).Contents (Elt F)),
    nullary main_cst_14 (constant S_ .f32 0xBF800000#32),
    unary main_cst_14 main_v43 (broadcastInDim S100000 ![] bcast_S_S100000 : (⟨S_, .f32⟩ : BufTy).Contents (Elt F) → (⟨S100000, .f32⟩ : BufTy).Contents (Elt F)),
    ternary main_v41 main_v42 main_v43 main_v44 ((fun x i u => Host.scatter scatter_S1700000_S1_S100000_0_n_0_0 FloatOps.addf x i u) : (⟨S1700000, .f32⟩ : BufTy).Contents (Elt F) → (⟨S1, .i32⟩ : BufTy).Contents (Elt F) → (⟨S100000, .f32⟩ : BufTy).Contents (Elt F) → (⟨S1700000, .f32⟩ : BufTy).Contents (Elt F)),
    nullary main_v45 (iotaInDim S100000 32 0),
    binary main_v1 main_v45 main_v46 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v45 main_v47 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The propagations and the first two products: operations 75–113. -/
abbrev opsB : List (HloOp τ sig (Elt F)) :=
  [ binary main_arg0 main_arg2 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v44 main_v49 (broadcastInDim S1700000x1 ![0] bcast_S1700000_S1700000x1_0 : (⟨S1700000, .f32⟩ : BufTy).Contents (Elt F) → (⟨S1700000x1, .f32⟩ : BufTy).Contents (Elt F)),
    nullary main_c_15 (constantI S_ 32 0#32),
    unary main_c_15 main_v50 (broadcastInDim S1700000 ![] bcast_S_S1700000 : (⟨S_, .i32⟩ : BufTy).Contents (Elt F) → (⟨S1700000, .i32⟩ : BufTy).Contents (Elt F)),
    binary main_v46 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v52 (broadcastInDim S1700000 ![] bcast_S_S1700000 : (⟨S_, .i32⟩ : BufTy).Contents (Elt F) → (⟨S1700000, .i32⟩ : BufTy).Contents (Elt F)),
    binary main_v46 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v46 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_arg0 main_v55 main_v56 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v49 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v56 main_v58 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v59 (broadcastInDim S100000x128 ![] bcast_S_S100000x128 : (⟨S_, .f32⟩ : BufTy).Contents (Elt F) → (⟨S100000x128, .f32⟩ : BufTy).Contents (Elt F)),
    unary main_v47 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    binary main_v61 main_arg3 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v48 main_v62 main_v63 (addf : (⟨S100000x128, .f32⟩ : BufTy).Contents (Elt F) → (⟨S100000x128, .f32⟩ : BufTy).Contents (Elt F) → (⟨S100000x128, .f32⟩ : BufTy).Contents (Elt F)),
    unary main_v44 main_v64 (broadcastInDim S1700000x1 ![0] bcast_S1700000_S1700000x1_0 : (⟨S1700000, .f32⟩ : BufTy).Contents (Elt F) → (⟨S1700000x1, .f32⟩ : BufTy).Contents (Elt F)),
    nullary main_c_18 (constantI S_ 32 0#32),
    unary main_c_18 main_v65 (broadcastInDim S1700000 ![] bcast_S_S1700000 : (⟨S_, .i32⟩ : BufTy).Contents (Elt F) → (⟨S1700000, .i32⟩ : BufTy).Contents (Elt F)),
    binary main_v46 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v67 (broadcastInDim S1700000 ![] bcast_S_S1700000 : (⟨S_, .i32⟩ : BufTy).Contents (Elt F) → (⟨S1700000, .i32⟩ : BufTy).Contents (Elt F)),
    binary main_v46 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v46 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v61 main_v70 main_v71 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v64 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v71 main_v73 (mulf : (⟨S1700000x128, .f32⟩ : BufTy).Contents (Elt F) → (⟨S1700000x128, .f32⟩ : BufTy).Contents (Elt F) → (⟨S1700000x128, .f32⟩ : BufTy).Contents (Elt F)),
    nullary main_cst_20 (constant S_ .f32 0x00000000#32),
    unary main_cst_20 main_v74 (broadcastInDim S100000x128 ![] bcast_S_S100000x128 : (⟨S_, .f32⟩ : BufTy).Contents (Elt F) → (⟨S100000x128, .f32⟩ : BufTy).Contents (Elt F)),
    unary main_v47 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    nullary main_cst_21 (constant S_ .f32 0x40000000#32),
    unary main_cst_21 main_v77 (broadcastInDim S100000x128 ![] bcast_S_S100000x128 : (⟨S_, .f32⟩ : BufTy).Contents (Elt F) → (⟨S100000x128, .f32⟩ : BufTy).Contents (Elt F)),
    binary main_v77 main_v76 main_v78 (mulf : (⟨S100000x128, .f32⟩ : BufTy).Contents (Elt F) → (⟨S100000x128, .f32⟩ : BufTy).Contents (Elt F) → (⟨S100000x128, .f32⟩ : BufTy).Contents (Elt F)),
    binary main_v78 main_arg0 main_v79 (subf : (⟨S100000x128, .f32⟩ : BufTy).Contents (Elt F) → (⟨S100000x128, .f32⟩ : BufTy).Contents (Elt F) → (⟨S100000x128, .f32⟩ : BufTy).Contents (Elt F)) ]

/-- The head up to the logits: operations 114–125. -/
abbrev opsC : List (HloOp τ sig (Elt F)) :=
  [ binary main_v79 main_arg4 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v63 main_v80 main_v81 (addf : (⟨S100000x128, .f32⟩ : BufTy).Contents (Elt F) → (⟨S100000x128, .f32⟩ : BufTy).Contents (Elt F) → (⟨S100000x128, .f32⟩ : BufTy).Contents (Elt F)),
    unary main_arg5 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v84) (TRef.of (T := ⟨S100000x128, .f32⟩) main_call4_v0) (TRef.of (T := ⟨S100000x128, .f32⟩) main_v85) maximumf,
    binary main_v85 main_arg6 main_v86 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg7 main_v87 (broadcastInDim S1x40 ![1] bcast_S40_S1x40_1 : (⟨S40, .f32⟩ : BufTy).Contents (Elt F) → (⟨S1x40, .f32⟩ : BufTy).Contents (Elt F)),
    unary main_v87 main_v88 (broadcastInDim S100000x40 ![0, 1] bcast_S1x40_S100000x40_0_1 : (⟨S1x40, .f32⟩ : BufTy).Contents (Elt F) → (⟨S100000x40, .f32⟩ : BufTy).Contents (Elt F)),
    binary main_v86 main_v88 main_v89 (addf : (⟨S100000x40, .f32⟩ : BufTy).Contents (Elt F) → (⟨S100000x40, .f32⟩ : BufTy).Contents (Elt F) → (⟨S100000x40, .f32⟩ : BufTy).Contents (Elt F)) ]

/-- The log-softmax: operations 126–140. -/
abbrev opsD : List (HloOp τ sig (Elt F)) :=
  [ TRef.nullary (TRef.of (T := ⟨S_, .f32⟩) main_call5_cst) (constant S_ .f32 0xFF800000#32),
    TRef.binary (TRef.of (T := ⟨S100000x40, .f32⟩) main_v89) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v89) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v90) subf ]

set_option maxRecDepth 8192 in
theorem ops_eq : (ops : List (HloOp τ sig (Elt F))) = opsA ++ (opsB ++ (opsC ++ opsD)) := rfl

/-- Contents carried to a buffer's own type and back are the contents. -/
theorem ofBuf_toBuf {T : BufTy} (x : TRef sig T) (v : T.Contents (Elt F)) : x.ofBuf (x.toBuf v) = v := by
  obtain ⟨ref, h, _, _⟩ := x
  subst h
  rfl
/-! ## What a stretch leaves alone -/

/-- The buffers the normalisation writes. -/
abbrev writtenA : List (Ref sig .tc) := [main_v0, main_v1, main_v2, main_v3, main_v4, main_cst, main_cst_0, main_call0_v0, main_call0_v1, main_v5, main_v6, main_cst_1, main_v7, main_v8, main_v9, main_cst_2, main_v10, main_v11, main_cst_3, main_v12, main_v13, main_cst_4, main_call1_v0, main_call1_v1, main_v14, main_c, main_v15, main_v16, main_c_5, main_v17, main_v18, main_v19, main_v20, main_v21, main_v22, main_v23, main_c_6, main_v24, main_v25, main_c_7, main_v26, main_v27, main_v28, main_v29, main_v30, main_v31, main_cst_8, main_v32, main_v33, main_cst_9, main_v34, main_cst_10, main_v35, main_cst_11, main_v36, main_v37, main_v38, main_v39, main_call2_v0, main_call2_cst, main_call2_v1, main_v40, main_cst_12, main_call3_v0, main_call3_v1, main_v41, main_c_13, main_v42, main_cst_14, main_v43, main_v44, main_v45, main_v46, main_v47]
/-- The buffers the propagations write. -/
abbrev writtenB : List (Ref sig .tc) := [main_v48, main_v49, main_c_15, main_v50, main_v51, main_c_16, main_v52, main_v53, main_v54, main_v55, main_v56, main_v57, main_v58, main_cst_17, main_v59, main_v60, main_v61, main_v62, main_v63, main_v64, main_c_18, main_v65, main_v66, main_c_19, main_v67, main_v68, main_v69, main_v70, main_v71, main_v72, main_v73, main_cst_20, main_v74, main_v75, main_v76, main_cst_21, main_v77, main_v78, main_v79]

theorem opsA_writes : (opsA : List (HloOp τ sig (Elt F))).Forall fun op => op.writes ⊆ (writtenA.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))
theorem opsB_writes : (opsB : List (HloOp τ sig (Elt F))).Forall fun op => op.writes ⊆ (writtenB.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

/-- A buffer the normalisation does not write keeps its contents. -/
theorem keepA (W : Valuation τ sig (Elt F)) (r : Ref sig .tc) (h : r ∉ writtenA) :
    after opsA W (Proc.devRef .tc r) = W (Proc.devRef .tc r) := after_of_writes_sub opsA W opsA_writes h
/-- A buffer the propagations do not write keeps its contents. -/
theorem keepB (W : Valuation τ sig (Elt F)) (r : Ref sig .tc) (h : r ∉ writtenB) :
    after opsB W (Proc.devRef .tc r) = W (Proc.devRef .tc r) := after_of_writes_sub opsB W opsB_writes h

/-! ## What each stretch leaves in the buffers the next one reads -/

set_option maxRecDepth 100000 in
set_option maxHeartbeats 4000000 in
/-- The normalisation leaves the rescaled edge weights (self loops appended, the unit diagonal subtracted) in `main_v44`. -/
theorem readA_weights (W : Valuation τ sig (Elt F)) :
    after opsA W (Proc.tc.devRef main_v44) = Read.val_main_v44 (F := F) (W (Proc.tc.devRef main_arg1)) := by
  after_results_simp
  simp only [ofBuf_toBuf]
  rfl

set_option maxRecDepth 100000 in
set_option maxHeartbeats 4000000 in
/-- … the source column with the self loops appended in `main_v46`, -/
theorem readA_src (W : Valuation τ sig (Elt F)) :
    after opsA W (Proc.tc.devRef main_v46) = Read.val_main_v46 (F := F) (W (Proc.tc.devRef main_arg1)) := by
  after_results_simp
  rfl

set_option maxRecDepth 100000 in
set_option maxHeartbeats 4000000 in
/-- … and the destination column in `main_v47`. -/
theorem readA_dst (W : Valuation τ sig (Elt F)) :
    after opsA W (Proc.tc.devRef main_v47) = Read.val_main_v47 (F := F) (W (Proc.tc.devRef main_arg1)) := by
  after_results_simp
  rfl

set_option maxRecDepth 100000 in
set_option maxHeartbeats 4000000 in
/-- From the normalisation's three buffers and the features, the second stretch leaves the second hop in `main_v79` … -/
theorem readB_hop2 (W : Valuation τ sig (Elt F)) (x0 : (⟨S100000x128, .f32⟩ : BufTy).Contents (Elt F)) (x1 : (⟨S2x1600000, .i32⟩ : BufTy).Contents (Elt F))
    (hw : (W (Proc.tc.devRef main_v44)) = Read.val_main_v44 (F := F) x1) (hs : (W (Proc.tc.devRef main_v46)) = Read.val_main_v46 (F := F) x1)
    (hd : (W (Proc.tc.devRef main_v47)) = Read.val_main_v47 (F := F) x1) (h0 : (W (Proc.tc.devRef main_arg0)) = x0) :
    after opsB W (Proc.tc.devRef main_v79) = Read.val_main_v79 (F := F) x0 x1 := by
  after_results_simp
  rw [hw, hs, hd, h0]
  rfl

set_option maxRecDepth 100000 in
set_option maxHeartbeats 4000000 in
/-- … and the first two weight products, summed, in `main_v63`. -/
theorem readB_two (W : Valuation τ sig (Elt F)) (x0 : (⟨S100000x128, .f32⟩ : BufTy).Contents (Elt F)) (x1 : (⟨S2x1600000, .i32⟩ : BufTy).Contents (Elt F))
    (x2 x3 : (⟨S128x128, .f32⟩ : BufTy).Contents (Elt F))
    (hw : (W (Proc.tc.devRef main_v44)) = Read.val_main_v44 (F := F) x1) (hs : (W (Proc.tc.devRef main_v46)) = Read.val_main_v46 (F := F) x1)
    (hd : (W (Proc.tc.devRef main_v47)) = Read.val_main_v47 (F := F) x1) (h0 : (W (Proc.tc.devRef main_arg0)) = x0)
    (h2 : (W (Proc.tc.devRef main_arg2)) = x2) (h3 : (W (Proc.tc.devRef main_arg3)) = x3) :
    after opsB W (Proc.tc.devRef main_v63) = Read.val_main_v63 (F := F) x0 x1 x2 x3 := by
  after_results_simp
  rw [hw, hs, hd, h0, h2, h3]
  rfl

set_option maxRecDepth 100000 in
set_option maxHeartbeats 4000000 in
/-- From those two and the remaining arguments, the third stretch leaves the logits in `main_v89`. -/
theorem readC (W : Valuation τ sig (Elt F)) (x0 : (⟨S100000x128, .f32⟩ : BufTy).Contents (Elt F)) (x1 : (⟨S2x1600000, .i32⟩ : BufTy).Contents (Elt F))
    (x2 x3 x4 : (⟨S128x128, .f32⟩ : BufTy).Contents (Elt F)) (x5 : (⟨S128, .f32⟩ : BufTy).Contents (Elt F))
    (x6 : (⟨S128x40, .f32⟩ : BufTy).Contents (Elt F)) (x7 : (⟨S40, .f32⟩ : BufTy).Contents (Elt F))
    (h63 : (W (Proc.tc.devRef main_v63)) = Read.val_main_v63 (F := F) x0 x1 x2 x3) (h79 : (W (Proc.tc.devRef main_v79)) = Read.val_main_v79 (F := F) x0 x1)
    (h4 : (W (Proc.tc.devRef main_arg4)) = x4) (h5 : (W (Proc.tc.devRef main_arg5)) = x5) (h6 : (W (Proc.tc.devRef main_arg6)) = x6) (h7 : (W (Proc.tc.devRef main_arg7)) = x7) :
    after opsC W (Proc.tc.devRef main_v89) = Read.val_main_v89 (F := F) x0 x1 x2 x3 x4 x5 x6 x7 := by
  after_results_simp
  rw [h63, h79, h4, h5, h6, h7]
  rfl

set_option maxRecDepth 100000 in
set_option maxHeartbeats 4000000 in
/-- From the logits, the log-softmax leaves the result in `main_v90`. -/
theorem readD (W : Valuation τ sig (Elt F)) (x0 : (⟨S100000x128, .f32⟩ : BufTy).Contents (Elt F)) (x1 : (⟨S2x1600000, .i32⟩ : BufTy).Contents (Elt F))
    (x2 x3 x4 : (⟨S128x128, .f32⟩ : BufTy).Contents (Elt F)) (x5 : (⟨S128, .f32⟩ : BufTy).Contents (Elt F))
    (x6 : (⟨S128x40, .f32⟩ : BufTy).Contents (Elt F)) (x7 : (⟨S40, .f32⟩ : BufTy).Contents (Elt F))
    (h89 : (W (Proc.tc.devRef main_v89)) = Read.val_main_v89 (F := F) x0 x1 x2 x3 x4 x5 x6 x7) :
    after opsD W (Proc.tc.devRef main_v90) = Read.val_main_v90 (F := F) x0 x1 x2 x3 x4 x5 x6 x7 := by
  after_results_simp
  simp only [ofBuf_toBuf]
  rw [h89]
  rfl

/-! ## The whole line -/

/-- THE RESULT BUFFER after the whole line is the last stage of the arguments. -/
theorem fold_eq (W : Valuation τ sig (Elt F)) :
    after ops W (Proc.tc.devRef main_v90)
      = Read.val_main_v90 (F := F) (W (Proc.tc.devRef main_arg0)) (W (Proc.tc.devRef main_arg1)) (W (Proc.tc.devRef main_arg2)) (W (Proc.tc.devRef main_arg3)) (W (Proc.tc.devRef main_arg4)) (W (Proc.tc.devRef main_arg5)) (W (Proc.tc.devRef main_arg6)) (W (Proc.tc.devRef main_arg7)) := by
  rw [ops_eq, after_append, after_append, after_append]
  refine readD _ _ _ _ _ _ _ _ _ (readC _ _ _ _ _ _ _ _ _ ?_ ?_ ?_ ?_ ?_ ?_)
  · exact readB_two _ _ _ _ _ (readA_weights W) (readA_src W) (readA_dst W) (keepA W main_arg0 (by decide)) (keepA W main_arg2 (by decide)) (keepA W main_arg3 (by decide))
  · exact readB_hop2 _ _ _ (readA_weights W) (readA_src W) (readA_dst W) (keepA W main_arg0 (by decide))
  · exact (keepB _ main_arg4 (by decide)).trans (keepA W main_arg4 (by decide))
  · exact (keepB _ main_arg5 (by decide)).trans (keepA W main_arg5 (by decide))
  · exact (keepB _ main_arg6 (by decide)).trans (keepA W main_arg6 (by decide))
  · exact (keepB _ main_arg7 (by decide)).trans (keepA W main_arg7 (by decide))

end Cert.ReferenceIdeal.Fold

end
-- ==== Proof.Spec.lean ====
/-
  One node of the Chebyshev head, as a function of coordinates.

  A node carries three feature rows `x0 x1 x2` (the three Chebyshev hops), each of 128 numbers. Its hidden row is
  `relu (x0·W0 + x1·W1 + x2·W2 + b)`, its 40 logits are `hidden·fcW + fcb`, and the answer is the log-softmax of the logits:
  `(l j − M) − log (∑ exp (l j' − M))` with `M` the largest logit. Everything is over the extended reals, with the sums,
  the maximum from `−∞` and the zero the sum starts from written as both programs write them.
-/
import Idealize.ShloMosaic.PureOps.Ideal
import Idealize.ShloMosaic.PureOps.Ideal.Laws

noncomputable section

namespace Cert.ChebHead

open Idealize.ShloMosaic

/-- The hidden row of one node: the three hop rows through their weights, summed in the order
    `((x0·W0 + x1·W1) + x2·W2) + b`, then the positive part. -/
def hidden (x0 x1 x2 : Fin 128 → EReal) (W0 W1 W2 : Fin 128 → Fin 128 → EReal) (b : Fin 128 → EReal) (k : Fin 128) : EReal :=
  max ((((∑ a, x0 a * W0 a k) + (∑ a, x1 a * W1 a k)) + (∑ a, x2 a * W2 a k)) + b k) (Ideal.ofBits .f32 0x00000000#32)

/-- The logits of one node from its hidden row. -/
def logit (h : Fin 128 → EReal) (fcW : Fin 128 → Fin 40 → EReal) (fcb : Fin 40 → EReal) (j : Fin 40) : EReal :=
  (∑ k, h k * fcW k j) + fcb j

/-- The largest of a row of 40 numbers, starting from `−∞`. -/
def rowMax (l : Fin 40 → EReal) : EReal :=
  (Finset.univ : Finset (Fin 40)).fold max (Ideal.ofBits .f32 0xFF800000#32) l

/-- The log-softmax of a row of 40 numbers. -/
def logSoftmax (l : Fin 40 → EReal) (j : Fin 40) : EReal :=
  (l j - rowMax l) - Ideal.log (∑ j', Ideal.exp (l j' - rowMax l))

/-- The whole head for one node. -/
def head (x0 x1 x2 : Fin 128 → EReal) (W0 W1 W2 : Fin 128 → Fin 128 → EReal) (b : Fin 128 → EReal)
    (fcW : Fin 128 → Fin 40 → EReal) (fcb : Fin 40 → EReal) (j : Fin 40) : EReal :=
  logSoftmax (logit (hidden x0 x1 x2 W0 W1 W2 b) fcW fcb) j

/-- The head over all 100000 nodes: node `r`, class `j`. -/
def headArr (X0 X1 X2 : Fin 100000 → Fin 128 → EReal) (W0 W1 W2 : Fin 128 → Fin 128 → EReal) (b : Fin 128 → EReal)
    (fcW : Fin 128 → Fin 40 → EReal) (fcb : Fin 40 → EReal) (r : Fin 100000) (j : Fin 40) : EReal :=
  head (X0 r) (X1 r) (X2 r) W0 W1 W2 b fcW fcb j

end Cert.ChebHead

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibHostRows.lean ====
/-
  A vector laid along the rows or down the columns of a matrix by the host's broadcasts, read at an index.

  The host repeats a length-`n` vector down `m` rows in two steps, [n] → [1,n] → [m,n], and a length-`m` vector across `n`
  columns as [m] → [m,1] → [m,n]. Entry (p, q) of the first is the vector at `q`, of the second the vector at `p`; the
  one-column array [m,1] at (p, u) is the vector at `p`.
-/
import Idealize.ShloMosaic.Lib.Pipeline.Value
import Idealize.ShloMosaic.Lib.ValueIdx

namespace Cert.Lib.HostRows

open Idealize.ShloMosaic Idealize.ShloMosaic.ValueIdx

variable {α : Type} {m n : Nat}

/-- A vector as one row, [n] → [1,n]: entry (u, q) is the vector at `q`. -/
theorem oneRow_apply (x : (⟨1, ![n]⟩ : Shape).Idx → α) (h : (⟨1, ![n]⟩ : Shape).BroadcastsInDim ⟨2, ![1, n]⟩ ![1])
    (u : Fin 1) (q : Fin n) : broadcastInDim ⟨2, ![1, n]⟩ ![1] h x (ix2 u q) = x (ix1 q) :=
  broadcastInDim_apply ![1] h x (ix2 u q) (ix1 q) (by
    intro a
    match a with
    | ⟨0, _⟩ =>
      show q.val = if n = 1 then 0 else q.val
      split
      · have := q.isLt; omega
      · rfl)

/-- A vector as one column, [m] → [m,1]: entry (p, u) is the vector at `p`. -/
theorem oneCol_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply ![0] h x (ix2 p u) (ix1 p) (by
    intro a
    match a with
    | ⟨0, _⟩ =>
      show p.val = if m = 1 then 0 else p.val
      split
      · have := p.isLt; omega
      · rfl)

/-- One row repeated down `m` rows, [1,n] → [m,n]: entry (p, q) is the row at `q`. -/
theorem rowsOf_apply (y : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h y (ix2 p q) = y (ix2 (0 : Fin 1) q) :=
  broadcastInDim_apply ![0, 1] h y (ix2 p q) (ix2 (0 : Fin 1) q) (by
    intro a
    match a with
    | ⟨0, _⟩ => show (0 : ℕ) = if (1 : ℕ) = 1 then 0 else p.val; rw [if_pos rfl]
    | ⟨1, _⟩ =>
      show q.val = if n = 1 then 0 else q.val
      split
      · have := q.isLt; omega
      · rfl)

/-- One column repeated across `n` columns, [m,1] → [m,n]: entry (p, q) is the column at `p`. -/
theorem colsOf_apply (y : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h y (ix2 p q) = y (ix2 p (0 : Fin 1)) :=
  broadcastInDim_apply ![0, 1] h y (ix2 p q) (ix2 p (0 : Fin 1)) (by
    intro a
    match a with
    | ⟨0, _⟩ =>
      show p.val = if m = 1 then 0 else p.val
      split
      · have := p.isLt; omega
      · rfl
    | ⟨1, _⟩ => show (0 : ℕ) = if (1 : ℕ) = 1 then 0 else q.val; rw [if_pos rfl])

/-- The two steps together: a vector along every row. -/
theorem vecRows_apply (x : (⟨1, ![n]⟩ : Shape).Idx → α) (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 x) (ix2 p q) = x (ix1 q) :=
  (rowsOf_apply _ h2 p q).trans (oneRow_apply x h1 0 q)

/-- The two steps together: a vector down every column. -/
theorem vecCols_apply (x : (⟨1, ![m]⟩ : Shape).Idx → α) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim ⟨2, ![m, n]⟩ ![0, 1] h2 (broadcastInDim ⟨2, ![m, 1]⟩ ![0] h1 x) (ix2 p q) = x (ix1 p) :=
  (colsOf_apply _ h2 p q).trans (oneCol_apply x h1 p 0)

end Cert.Lib.HostRows
-- ==== Proof.ReferenceHead.lean ====
/-
  The reference's result, entry by entry.

  After the two propagations the reference multiplies the three hop arrays by their weights on the host, adds the bias along
  the rows, takes the positive part, multiplies by the classifier weight, adds its bias and applies jax's log-softmax along
  the classes. Read at (r, j), with the host's products as plain sums over the contracted coordinate, its broadcasts read at
  the coordinate they repeat, its row maximum a fold of max from −∞ (the second max with −∞ that jax adds changes nothing)
  and its row sum started from zero, this is the head (Spec.lean) of node r's three rows at class j.
-/
import proofs.«125074_j73753178407276_1_alg».proof.Proof.ReferenceRead
import proofs.«125074_j73753178407276_1_alg».proof.Proof.Spec
import proofs.«125074_j73753178407276_1_alg».proof.Proof.LibPlainProduct
import proofs.«125074_j73753178407276_1_alg».proof.Proof.LibHostRows
import Mathlib.Data.Finset.Fold
import Idealize.ShloMosaic.Lib.ValueIdx
import Idealize.ShloMosaic.Lib.IdealHost
import Idealize.ShloMosaic.PureOps.Ideal.Laws

noncomputable section

namespace Cert.ReferenceIdeal.Head

open Cert.ReferenceIdeal Cert.ReferenceIdeal.Gen Cert.ReferenceIdeal.Read Idealize.ShloMosaic Idealize.ShloMosaic.ValueIdx Cert.ChebHead

variable (x0 : (⟨S100000x128, .f32⟩ : BufTy).Contents (Elt Ideal)) (x1 : (⟨S2x1600000, .i32⟩ : BufTy).Contents (Elt Ideal))
  (x2 x3 x4 : (⟨S128x128, .f32⟩ : BufTy).Contents (Elt Ideal)) (x5 : (⟨S128, .f32⟩ : BufTy).Contents (Elt Ideal))
  (x6 : (⟨S128x40, .f32⟩ : BufTy).Contents (Elt Ideal)) (x7 : (⟨S40, .f32⟩ : BufTy).Contents (Elt Ideal))

theorem dotA_plain : dot_S100000x128_S128x128_S100000x128_1_0_0_1_n_n = DotDims.plain 100000 128 128 := rfl
theorem dotB_plain : dot_S100000x128_S128x40_S100000x40_1_0_0_1_n_n = DotDims.plain 100000 128 40 := rfl

/-- Node `r`'s hidden row, from the features and the two hop arrays. -/
abbrev hid (r : Fin 100000) : Fin 128 → EReal :=
  hidden (fun a => x0 (ix2 r a)) (fun a => val_main_v61 (F := Ideal) x0 x1 (ix2 r a)) (fun a => val_main_v79 (F := Ideal) x0 x1 (ix2 r a))
    (fun a k => x2 (ix2 a k)) (fun a k => x3 (ix2 a k)) (fun a k => x4 (ix2 a k)) (fun k => x5 (ix1 k))

/-- Node `r`'s logits. -/
abbrev lgt (r : Fin 100000) : Fin 40 → EReal :=
  logit (hid x0 x1 x2 x3 x4 x5 r) (fun k j => x6 (ix2 k j)) (fun j => x7 (ix1 j))

/-- The hidden array at (r, k). -/
theorem hidden_apply (r : Fin 100000) (k : Fin 128) :
    val_main_v85 (F := Ideal) x0 x1 x2 x3 x4 x5 (ix2 r k) = hid x0 x1 x2 x3 x4 x5 r k := by
  have e0 := Cert.PlainProduct.dotGeneral_plain_apply' (φ₁ := .f32) (φ₂ := .f32) _ dotA_plain none x0 x2 r k
  have e1 := Cert.PlainProduct.dotGeneral_plain_apply' (φ₁ := .f32) (φ₂ := .f32) _ dotA_plain none (val_main_v61 (F := Ideal) x0 x1) x3 r k
  have e2 := Cert.PlainProduct.dotGeneral_plain_apply' (φ₁ := .f32) (φ₂ := .f32) _ dotA_plain none (val_main_v79 (F := Ideal) x0 x1) x4 r k
  have e3 := Cert.Lib.HostRows.vecRows_apply x5 bcast_S128_S1x128_1 bcast_S1x128_S100000x128_0_1 r k
  unfold val_main_v85 val_main_v84 val_main_v81 val_main_v63 val_main_v48 val_main_v62 val_main_v80 val_main_v83 val_main_v82
  show max (((_ + _) + _) + _) _ = _
  rw [e0, e1, e2, e3]
  rfl

/-- The logits array at (r, j). -/
theorem logits_apply (r : Fin 100000) (j : Fin 40) :
    val_main_v89 (F := Ideal) x0 x1 x2 x3 x4 x5 x6 x7 (ix2 r j) = lgt x0 x1 x2 x3 x4 x5 x6 x7 r j := by
  have e0 := Cert.PlainProduct.dotGeneral_plain_apply' (φ₁ := .f32) (φ₂ := .f32) _ dotB_plain none (val_main_v85 (F := Ideal) x0 x1 x2 x3 x4 x5) x6 r j
  have e1 := Cert.Lib.HostRows.vecRows_apply x7 bcast_S40_S1x40_1 bcast_S1x40_S100000x40_0_1 r j
  unfold val_main_v89 val_main_v86 val_main_v88 val_main_v87
  show _ + _ = _
  rw [e0, e1]
  simp only [hidden_apply]
  rfl

/-! ## The log-softmax of an array of logits, entry by entry -/

/-- Dropping the class axis of [100000, 40] leaves [100000]. -/
theorem reducesRow : S100000x40.Reduces [1] S100000 := by decide

/-- The reduction's inserted index: row `r` with class `k` put back. -/
theorem lift_row (r : Fin 100000) (k : Fin 40) : reducesRow.lift (ix1 r) k = ix2 r k := by
  funext a
  match a with
  | ⟨0, _⟩ => rfl
  | ⟨1, _⟩ => rfl

variable (L : FVec Ideal S100000x40 .f32)

/-- jax's row maximum: a reduce by max from −∞ over the classes, then once more max with −∞. -/
def rowMaxOf : FVec Ideal S100000 .f32 :=
  maximumf (broadcastInDim S100000 ![] bcast_S_S100000 (constant (F := Ideal) S_ .f32 0xFF800000#32))
    (Host.reduce FloatOps.maximumf L (constant (F := Ideal) S_ .f32 0xFF800000#32) reducesTo_S100000x40_S100000_d1 h_S_)

/-- The logits less their row maximum. -/
def shiftedOf : FVec Ideal S100000x40 .f32 :=
  subf L (broadcastInDim S100000x40 ![0, 1] bcast_S100000x1_S100000x40_0_1 (broadcastInDim S100000x1 ![0] bcast_S100000_S100000x1_0 (rowMaxOf L)))

/-- The row sums of the exponentials of the shifted logits, from zero. -/
def rowSumOf : FVec Ideal S100000 .f32 :=
  Host.reduceAdd (Host.exp (shiftedOf L)) (constant (F := Ideal) S_ .f32 0x00000000#32) reducesTo_S100000x40_S100000_d1 h_S_

/-- jax's log-softmax along the classes. -/
def logSoftmaxOf : FVec Ideal S100000x40 .f32 :=
  subf (shiftedOf L) (broadcastInDim S100000x40 ![0, 1] bcast_S100000x1_S100000x40_0_1
    (Host.log (broadcastInDim S100000x1 ![0] bcast_S100000_S100000x1_0 (rowSumOf L))))

/-- The host's exponential and logarithm at an index. -/
theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- A second max with the value a fold of max started from changes nothing. -/
theorem max_fold_self (a : EReal) (f : Fin 40 → EReal) :
    max a ((Finset.univ : Finset (Fin 40)).fold (FloatOps.maximumf (F := Ideal) (φ := .f32)) a f)
      = (Finset.univ : Finset (Fin 40)).fold max a f :=
  max_eq_right ((Finset.le_fold_max a).mpr (Or.inl le_rfl))

/-- The row maximum at `r` is the largest of row `r`. -/
theorem rowMaxOf_apply (r : Fin 100000) : rowMaxOf L (ix1 r) = rowMax (fun j => L (ix2 r j)) := by
  have e := Host.reduce_eq_fold_single (FloatOps.maximumf (F := Ideal) (φ := .f32)) L
    (constant (F := Ideal) S_ .f32 0xFF800000#32) reducesTo_S100000x40_S100000_d1 reducesRow h_S_ (ix1 r)
  have hf : (L ∘ reducesRow.lift (ix1 r)) = fun j : Fin 40 => L (ix2 r j) := by
    funext k
    exact congrArg L (lift_row r k)
  unfold rowMaxOf
  rw [maximumf_apply, e, hf, broadcastInDim_scalar_apply, constant_apply, constant_apply]
  exact max_fold_self _ _

/-- The shifted logits at (r, j). -/
theorem shiftedOf_apply (r : Fin 100000) (j : Fin 40) :
    shiftedOf L (ix2 r j) = L (ix2 r j) - rowMax (fun j' => L (ix2 r j')) := by
  unfold shiftedOf
  rw [subf_apply, Cert.Lib.HostRows.vecCols_apply, rowMaxOf_apply]

/-- The row sum at `r`. -/
theorem rowSumOf_apply (r : Fin 100000) :
    rowSumOf L (ix1 r) = ∑ j' : Fin 40, Ideal.exp (L (ix2 r j') - rowMax (fun j'' => L (ix2 r j''))) := by
  unfold rowSumOf
  rw [hostReduceAdd_apply, Ideal.hostReduceAdd_single reducesTo_S100000x40_S100000_d1 reducesRow, constant_apply,
    Ideal.ofBits_zero_f32, zero_add]
  show ∑ k : Fin 40, Host.exp (shiftedOf L) (reducesRow.lift (ix1 r) k) = _
  refine Finset.sum_congr rfl fun k _ => ?_
  rw [lift_row, hostExp_apply, shiftedOf_apply]

/-- jax's log-softmax at (r, j) is the log-softmax of row `r` at `j`. -/
theorem logSoftmaxOf_apply (r : Fin 100000) (j : Fin 40) :
    logSoftmaxOf L (ix2 r j) = logSoftmax (fun j' => L (ix2 r j')) j := by
  unfold logSoftmaxOf
  rw [subf_apply, Cert.Lib.HostRows.colsOf_apply, hostLog_apply, Cert.Lib.HostRows.oneCol_apply, rowSumOf_apply, shiftedOf_apply]
  rfl

/-! ## The reference's result -/

/-- The last stage is jax's log-softmax of the logits stage. -/
theorem result_is_logSoftmax :
    val_main_v90 (F := Ideal) x0 x1 x2 x3 x4 x5 x6 x7 = logSoftmaxOf (val_main_v89 (F := Ideal) x0 x1 x2 x3 x4 x5 x6 x7) := rfl

/-- The result as one function of the arguments: the head of every node, from the features, the two hop arrays (the
    named stages of the features and the edges), the weights and the two biases. -/
def resultOf : S100000x40.Idx → EReal := fun i =>
  headArr (fun r a => x0 (ix2 r a)) (fun r a => val_main_v61 (F := Ideal) x0 x1 (ix2 r a)) (fun r a => val_main_v79 (F := Ideal) x0 x1 (ix2 r a))
    (fun a k => x2 (ix2 a k)) (fun a k => x3 (ix2 a k)) (fun a k => x4 (ix2 a k)) (fun k => x5 (ix1 k))
    (fun k j => x6 (ix2 k j)) (fun j => x7 (ix1 j)) (i 0) (i 1)

/-- THE REFERENCE'S RESULT is that function. -/
theorem result_eq : val_main_v90 (F := Ideal) x0 x1 x2 x3 x4 x5 x6 x7 = resultOf x0 x1 x2 x3 x4 x5 x6 x7 := by
  rw [result_is_logSoftmax]
  funext i
  obtain ⟨r, j, rfl⟩ : ∃ (r : Fin 100000) (j : Fin 40), i = ix2 r j := ⟨i 0, i 1, eq_ix2 i⟩
  rw [logSoftmaxOf_apply]
  have hl : (fun j' : Fin 40 => val_main_v89 (F := Ideal) x0 x1 x2 x3 x4 x5 x6 x7 (ix2 r j')) = lgt x0 x1 x2 x3 x4 x5 x6 x7 r :=
    funext fun j' => logits_apply x0 x1 x2 x3 x4 x5 x6 x7 r j'
  rw [hl]
  rfl

end Cert.ReferenceIdeal.Head

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.KernelPayload.lean ====
/-
  The kernel's block, entry by entry.

  At one grid point the body holds a block of 2000 nodes: three [2000,128] feature blocks, the three [128,128] hop weights, the
  bias as one row, the [128,40] classifier weight and its bias as one row. Entry (p, q) of what it stores is the head
  (Spec.lean) of node p's three rows at class q: the matrix products into a zero accumulator are plain sums over the
  contracted coordinate, the narrowing to bf16 changes nothing over the extended reals, a bias row repeated down the block
  reads the bias at the column, and the lane maximum and lane sum run over the 40 classes of the row.
-/
import proofs.«125074_j73753178407276_1_alg».proof.Proof.Gen.KernelIdeal.Value
import proofs.«125074_j73753178407276_1_alg».proof.Proof.Spec
import proofs.«125074_j73753178407276_1_alg».proof.Proof.LibPlainProduct
import proofs.«125074_j73753178407276_1_alg».proof.Proof.LibRepeat
import proofs.«125074_j73753178407276_1_alg».proof.Proof.LibColumn
import Idealize.ShloMosaic.Lib.ValueIdx
import Idealize.ShloMosaic.Lib.Pipeline.Value
import Idealize.ShloMosaic.PureOps.Ideal.Laws

noncomputable section

namespace Cert.KernelIdeal.Head

open Cert.KernelIdeal Cert.KernelIdeal.Gen Idealize.ShloMosaic Idealize.ShloMosaic.ValueIdx Cert.ChebHead

variable (P0 P1 P2 : Vec Ideal S2000x128 .f32) (P3 P4 P5 : Vec Ideal S128x128 .f32) (P6 : Vec Ideal S1x128 .f32)
  (P7 : Vec Ideal S128x40 .f32) (P8 : Vec Ideal S1x40 .f32)

/-- Node `p`'s hidden row inside the block, from the block's rows. -/
abbrev hid (p : Fin 2000) : Fin 128 → EReal :=
  hidden (fun a => P0 (ix2 p a)) (fun a => P1 (ix2 p a)) (fun a => P2 (ix2 p a))
    (fun a k => P3 (ix2 a k)) (fun a k => P4 (ix2 a k)) (fun a k => P5 (ix2 a k)) (fun k => P6 (ix2 (0 : Fin 1) k))

/-- Node `p`'s logits inside the block. -/
abbrev lgt (p : Fin 2000) : Fin 40 → EReal :=
  logit (hid P0 P1 P2 P3 P4 P5 P6 p) (fun k j => P7 (ix2 k j)) (fun j => P8 (ix2 (0 : Fin 1) j))

theorem dotA_plain : dot_S2000x128_S128x128_S2000x128_1_0_0_1_n_n = DotDims.plain 2000 128 128 := rfl
theorem dotB_plain : dot_S2000x128_S128x40_S2000x40_1_0_0_1_n_n = DotDims.plain 2000 128 40 := rfl

/-- The block's hidden activations, as the body computes them. -/
def hiddenBlock : FVec Ideal S2000x128 .f32 :=
  maximumf
    (addf
      (addf
        (addf
          (matmul dot_S2000x128_S128x128_S2000x128_1_0_0_1_n_n none (truncf FTy.bf16 P0 bitsLt_bf16_f32)
            (truncf FTy.bf16 P3 bitsLt_bf16_f32) (constant S2000x128 FTy.f32 0#32))
          (matmul dot_S2000x128_S128x128_S2000x128_1_0_0_1_n_n none
            (truncf FTy.bf16 (shapeCast S2000x128 P1 shapeCasts_S2000x128_S2000x128) bitsLt_bf16_f32)
            (truncf FTy.bf16 P4 bitsLt_bf16_f32) (constant S2000x128 FTy.f32 0#32)))
        (matmul dot_S2000x128_S128x128_S2000x128_1_0_0_1_n_n none
          (truncf FTy.bf16 (shapeCast S2000x128 P2 shapeCasts_S2000x128_S2000x128) bitsLt_bf16_f32)
          (truncf FTy.bf16 P5 bitsLt_bf16_f32) (constant S2000x128 FTy.f32 0#32)))
      (broadcastTo S2000x128 (shapeCast S1x128 P6 shapeCasts_S1x128_S1x128) broadcasts_S1x128_S2000x128))
    (broadcast S2000x128 (FloatOps.ofBits FTy.f32 0#32))

/-- The hidden block at (p, k) is node `p`'s hidden unit `k`. -/
theorem hiddenBlock_apply (p : Fin 2000) (k : Fin 128) :
    hiddenBlock P0 P1 P2 P3 P4 P5 P6 (ix2 p k) = hid P0 P1 P2 P3 P4 P5 P6 p k := by
  have e0 := Cert.PlainProduct.matmul_plain_apply _ dotA_plain none (truncf FTy.bf16 P0 bitsLt_bf16_f32)
    (truncf FTy.bf16 P3 bitsLt_bf16_f32) p k
  have e1 := Cert.PlainProduct.matmul_plain_apply _ dotA_plain none
    (truncf FTy.bf16 (shapeCast S2000x128 P1 shapeCasts_S2000x128_S2000x128) bitsLt_bf16_f32) (truncf FTy.bf16 P4 bitsLt_bf16_f32) p k
  have e2 := Cert.PlainProduct.matmul_plain_apply _ dotA_plain none
    (truncf FTy.bf16 (shapeCast S2000x128 P2 shapeCasts_S2000x128_S2000x128) bitsLt_bf16_f32) (truncf FTy.bf16 P5 bitsLt_bf16_f32) p k
  have e3 := Cert.Lib.Repeat.rowRepeat_apply (shapeCast S1x128 P6 shapeCasts_S1x128_S1x128) broadcasts_S1x128_S2000x128 p k
  rw [shapeCast_self] at e1 e2 e3
  unfold hiddenBlock
  rw [shapeCast_self, shapeCast_self, shapeCast_self]
  show max (((_ + _) + _) + _) _ = _
  rw [e0, e1, e2, e3]
  rfl

/-- The logits payload at (p, q). -/
theorem logits_apply (p : Fin 2000) (q : Fin 40) :
    k0_pay2 P0 P1 P2 P3 P4 P5 P6 P7 P8 (ix2 p q) = lgt P0 P1 P2 P3 P4 P5 P6 P7 P8 p q := by
  have e0 := Cert.PlainProduct.matmul_plain_apply _ dotB_plain none
    (truncf FTy.bf16 (hiddenBlock P0 P1 P2 P3 P4 P5 P6) bitsLt_bf16_f32) (truncf FTy.bf16 P7 bitsLt_bf16_f32) p q
  have e1 := Cert.Lib.Repeat.rowRepeat_apply (shapeCast S1x40 P8 shapeCasts_S1x40_S1x40) broadcasts_S1x40_S2000x40 p q
  show (matmul dot_S2000x128_S128x40_S2000x40_1_0_0_1_n_n none
        (truncf FTy.bf16 (hiddenBlock P0 P1 P2 P3 P4 P5 P6) bitsLt_bf16_f32)
        (truncf FTy.bf16 P7 bitsLt_bf16_f32) (constant S2000x40 FTy.f32 0#32)) (ix2 p q)
      + (broadcastTo S2000x40 (shapeCast S1x40 P8 shapeCasts_S1x40_S1x40) broadcasts_S1x40_S2000x40) (ix2 p q) = _
  rw [e0, e1, shapeCast_self]
  show (∑ k : Fin 128, hiddenBlock P0 P1 P2 P3 P4 P5 P6 (ix2 p k) * P7 (ix2 k q)) + P8 (ix2 (0 : Fin 1) q) = _
  simp only [hiddenBlock_apply]
  rfl

/-! ## The row maximum, the row sum, and the stored entry -/

/-- The lane reduction's inserted index: row `p` with class `k` put back. -/
theorem lift_row (p : Fin 2000) (k : Fin 40) :
    reduces_S2000x40_S2000.lift (ix1 p) k = ix2 p k := by
  funext a
  match a with
  | ⟨0, _⟩ => rfl
  | ⟨1, _⟩ => rfl

set_option backward.isDefEq.respectTransparency.types false in
/-- The lane maximum of the logits block at row `p` is the largest of node `p`'s logits. -/
theorem rowMax_apply (p : Fin 2000) :
    (multiReduction .maximumf [1] S2000 (k0_pay2 P0 P1 P2 P3 P4 P5 P6 P7 P8) 0xFF800000#32 reduces_S2000x40_S2000 (.inl rfl) rfl) (ix1 p)
      = rowMax (lgt P0 P1 P2 P3 P4 P5 P6 P7 P8 p) := by
  refine (Ideal.multiReduction_maximumf_single (k0_pay2 P0 P1 P2 P3 P4 P5 P6 P7 P8) 0xFF800000#32 reduces_S2000x40_S2000
    (.inl rfl) rfl (ix1 p)).trans ?_
  unfold rowMax
  congr 1
  funext k
  show k0_pay2 P0 P1 P2 P3 P4 P5 P6 P7 P8 (reduces_S2000x40_S2000.lift (ix1 p) k) = _
  rw [lift_row, logits_apply]

set_option backward.isDefEq.respectTransparency.types false in
/-- The row maximum as the body re-lays it: a column, repeated across the 40 classes. -/
theorem rowMax_bcast_apply (p : Fin 2000) (q : Fin 40) :
    (broadcastTo S2000x40 (shapeCast S2000x1 (multiReduction .maximumf [1] S2000 (k0_pay2 P0 P1 P2 P3 P4 P5 P6 P7 P8) 0xFF800000#32 reduces_S2000x40_S2000 (.inl rfl) rfl) shapeCasts_S2000_S2000x1) broadcasts_S2000x1_S2000x40) (ix2 p q)
      = rowMax (lgt P0 P1 P2 P3 P4 P5 P6 P7 P8 p) := by
  rw [Cert.Lib.Repeat.colRepeat_apply, Cert.Lib.Column.shapeCast_a_a1_apply, rowMax_apply]

set_option backward.isDefEq.respectTransparency.types false in
/-- The lane sum of the exponentials at row `p`. -/
theorem rowSum_apply (p : Fin 2000) :
    (multiReduction .add [1] S2000 (exp (subf (k0_pay2 P0 P1 P2 P3 P4 P5 P6 P7 P8) (broadcastTo S2000x40 (shapeCast S2000x1 (multiReduction .maximumf [1] S2000 (k0_pay2 P0 P1 P2 P3 P4 P5 P6 P7 P8) 0xFF800000#32 reduces_S2000x40_S2000 (.inl rfl) rfl) shapeCasts_S2000_S2000x1) broadcasts_S2000x1_S2000x40))) 0x00000000#32 reduces_S2000x40_S2000 (.inl rfl) rfl) (ix1 p)
      = ∑ j' : Fin 40, Ideal.exp (lgt P0 P1 P2 P3 P4 P5 P6 P7 P8 p j' - rowMax (lgt P0 P1 P2 P3 P4 P5 P6 P7 P8 p)) := by
  refine (Ideal.multiReduction_add_single _ 0x00000000#32 reduces_S2000x40_S2000 (.inl rfl) rfl (ix1 p)).trans ?_
  refine Finset.sum_congr rfl fun k _ => ?_
  rw [lift_row]
  show Ideal.exp (k0_pay2 P0 P1 P2 P3 P4 P5 P6 P7 P8 (ix2 p k) - (broadcastTo S2000x40 (shapeCast S2000x1 (multiReduction .maximumf [1] S2000 (k0_pay2 P0 P1 P2 P3 P4 P5 P6 P7 P8) 0xFF800000#32 reduces_S2000x40_S2000 (.inl rfl) rfl) shapeCasts_S2000_S2000x1) broadcasts_S2000x1_S2000x40) (ix2 p k)) = _
  rw [logits_apply, rowMax_bcast_apply]

set_option backward.isDefEq.respectTransparency.types false in
/-- ENTRY (p, q) OF WHAT THE BODY STORES is the head of node `p` at class `q`. -/
theorem stored_apply (p : Fin 2000) (q : Fin 40) :
    Cert.KernelIdeal.Value.E9 P0 P1 P2 P3 P4 P5 P6 P7 P8 (ix2 p q) = logSoftmax (lgt P0 P1 P2 P3 P4 P5 P6 P7 P8 p) q := by
  have h0 : Cert.KernelIdeal.Value.ix9_0 (ix2 p q) = ix2 p q := by
    funext a
    match a with
    | ⟨0, _⟩ => rfl
    | ⟨1, _⟩ => rfl
  have h1 : Cert.KernelIdeal.Value.ix9_1 (ix2 p q) = ix1 p := by
    funext a
    match a with
    | ⟨0, _⟩ => rfl
  have h2 : Cert.KernelIdeal.Value.ix9_2 (ix2 p q) = ix1 p := by
    funext a
    match a with
    | ⟨0, _⟩ => rfl
  unfold Cert.KernelIdeal.Value.E9
  rw [h0, h1, h2, rowMax_apply, rowSum_apply, logits_apply]
  rfl

end Cert.KernelIdeal.Head

end
-- ==== Proof.KernelArray.lean ====
/-
  From the kernel's blocks to its whole result array.

  The grid has 50 points; point t holds nodes 2000·t … 2000·t + 1999: the three feature arrays are cut into [2000,128] blocks
  by rows, the weights and the two bias rows are whole at every point, and the result block [2000,40] goes back to rows
  2000·t … of the result. Entry (p, q) of the block stored at point t is the head of node 2000·t + p at class q, so what
  point t writes back is block t of ONE array, `headOf`, and since the 50 blocks tile the 100000 rows the result array is
  that array.
-/
import proofs.«125074_j73753178407276_1_alg».proof.Proof.KernelPayload

noncomputable section

namespace Cert.KernelIdeal.Head

open Cert.KernelIdeal Cert.KernelIdeal.Gen Cert.KernelIdeal.Value Idealize.ShloMosaic Idealize.ShloMosaic.TcCoe Idealize.SL.Sem
open Idealize.ShloMosaic.ValueIdx Cert.ChebHead
open Idealize.ShloMosaic.Pipeline (Dat)

/-- A block's stored entry from the arrays the block's rows were cut from: if row `p` of each feature block is row `r` of
    its array and the other blocks are the whole weights and bias rows, entry (p, q) is the head of node `r` at `q`. -/
theorem stored_of_rows (P0 P1 P2 : Vec Ideal S2000x128 .f32) (P3 P4 P5 : Vec Ideal S128x128 .f32) (P6 : Vec Ideal S1x128 .f32)
    (P7 : Vec Ideal S128x40 .f32) (P8 : Vec Ideal S1x40 .f32)
    (X0 X1 X2 : Fin 100000 → Fin 128 → EReal) (W0 W1 W2 : Fin 128 → Fin 128 → EReal) (b : Fin 128 → EReal)
    (fcW : Fin 128 → Fin 40 → EReal) (fcb : Fin 40 → EReal) (r : Fin 100000) (p : Fin 2000) (q : Fin 40)
    (h0 : ∀ a, P0 (ix2 p a) = X0 r a) (h1 : ∀ a, P1 (ix2 p a) = X1 r a) (h2 : ∀ a, P2 (ix2 p a) = X2 r a)
    (h3 : ∀ a k, P3 (ix2 a k) = W0 a k) (h4 : ∀ a k, P4 (ix2 a k) = W1 a k) (h5 : ∀ a k, P5 (ix2 a k) = W2 a k)
    (h6 : ∀ k, P6 (ix2 (0 : Fin 1) k) = b k) (h7 : ∀ k j, P7 (ix2 k j) = fcW k j) (h8 : ∀ j, P8 (ix2 (0 : Fin 1) j) = fcb j) :
    E9 P0 P1 P2 P3 P4 P5 P6 P7 P8 (ix2 p q) = headArr X0 X1 X2 W0 W1 W2 b fcW fcb r q := by
  rw [stored_apply]
  have e0 : (fun a => P0 (ix2 p a)) = X0 r := funext h0
  have e1 : (fun a => P1 (ix2 p a)) = X1 r := funext h1
  have e2 : (fun a => P2 (ix2 p a)) = X2 r := funext h2
  have e3 : (fun a k => P3 (ix2 a k)) = W0 := funext fun a => funext (h3 a)
  have e4 : (fun a k => P4 (ix2 a k)) = W1 := funext fun a => funext (h4 a)
  have e5 : (fun a k => P5 (ix2 a k)) = W2 := funext fun a => funext (h5 a)
  have e6 : (fun k => P6 (ix2 (0 : Fin 1) k)) = b := funext h6
  have e7 : (fun k j => P7 (ix2 k j)) = fcW := funext fun k => funext (h7 k)
  have e8 : (fun j => P8 (ix2 (0 : Fin 1) j)) = fcb := funext h8
  show logSoftmax (logit (hidden (fun a => P0 (ix2 p a)) (fun a => P1 (ix2 p a)) (fun a => P2 (ix2 p a))
    (fun a k => P3 (ix2 a k)) (fun a k => P4 (ix2 a k)) (fun a k => P5 (ix2 a k)) (fun k => P6 (ix2 (0 : Fin 1) k)))
    (fun k j => P7 (ix2 k j)) (fun j => P8 (ix2 (0 : Fin 1) j))) q = _
  rw [e0, e1, e2, e3, e4, e5, e6, e7, e8]
  rfl

/-- THE RESULT ARRAY as one function of nine arrays: the three feature arrays, the three hop weights, the bias row, the
    classifier weight and its bias row. -/
def headArrOf (A0 A1 A2 : S100000x128.Idx → EReal) (A3 A4 A5 : S128x128.Idx → EReal) (A6 : S1x128.Idx → EReal)
    (A7 : S128x40.Idx → EReal) (A8 : S1x40.Idx → EReal) : S100000x40.Idx → EReal := fun i =>
  headArr (fun r a => A0 (ix2 r a)) (fun r a => A1 (ix2 r a)) (fun r a => A2 (ix2 r a))
    (fun a k => A3 (ix2 a k)) (fun a k => A4 (ix2 a k)) (fun a k => A5 (ix2 a k))
    (fun k => A6 (ix2 (0 : Fin 1) k)) (fun k j => A7 (ix2 k j)) (fun j => A8 (ix2 (0 : Fin 1) j))
    (i 0) (i 1)

theorem origin2 : (![0, 0] : Fin 2 → Nat) = fun _ => 0 := funext fun a => by fin_cases a <;> rfl

/-- The printed index maps, decided over the 50 grid points: the row-cut windows are at block (t, 0), the whole ones at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- THE BLOCK STORED AT POINT `t`, computed from the nine arrays' blocks at `t`, is block `t` of `headArrOf` of the arrays. -/
theorem block_of_arrays (A0 A1 A2 : S100000x128.Idx → EReal) (A3 A4 A5 : S128x128.Idx → EReal) (A6 : S1x128.Idx → EReal)
    (A7 : S128x40.Idx → EReal) (A8 : S1x40.Idx → EReal) (t : Fin cfg0.N) :
    E9 (((cfg0.win 0).blk t).view.read (Elt Ideal) A0) (((cfg0.win 1).blk t).view.read (Elt Ideal) A1)
       (((cfg0.win 2).blk t).view.read (Elt Ideal) A2) (((cfg0.win 3).blk t).view.read (Elt Ideal) A3)
       (((cfg0.win 4).blk t).view.read (Elt Ideal) A4) (((cfg0.win 5).blk t).view.read (Elt Ideal) A5)
       (((cfg0.win 6).blk t).view.read (Elt Ideal) A6) (((cfg0.win 7).blk t).view.read (Elt Ideal) A7)
       (((cfg0.win 8).blk t).view.read (Elt Ideal) A8)
      = ((cfg0.win 9).blk t).view.read (Elt Ideal) (headArrOf A0 A1 A2 A3 A4 A5 A6 A7 A8) := by
  obtain ⟨a00, a01, a10, a11, a20, a21, a30, a31, a40, a41, a50, a51, a60, a61, a70, a71, a80, a81, a90, a91⟩ := index_facts t
  have ht : t.val < 50 := Nat.lt_of_lt_of_eq t.isLt N_0
  funext j
  obtain ⟨p, q, rfl⟩ : ∃ (p : Fin 2000) (q : Fin 40), j = ix2 p q := ⟨j 0, j 1, eq_ix2 j⟩
  have hr : 2000 * t.val + p.val < 100000 := by have := p.isLt; omega
  have hrow : (((cfg0.win 9).blk t).view.emb (ix2 p q)) = ix2 (⟨2000 * t.val + p.val, hr⟩ : Fin 100000) q := by
    funext a; apply Fin.ext
    match a with
    | ⟨0, _⟩ => show win0_9.index t (0 : Fin 2) * 2000 + 1 * p.val = 2000 * t.val + p.val; omega
    | ⟨1, _⟩ => show win0_9.index t (1 : Fin 2) * 40 + 1 * q.val = q.val; omega
  show _ = headArrOf A0 A1 A2 A3 A4 A5 A6 A7 A8 (((cfg0.win 9).blk t).view.emb (ix2 p q))
  rw [hrow]
  unfold headArrOf
  refine stored_of_rows _ _ _ _ _ _ _ _ _ _ _ _ _ _ _ _ _ _ ⟨2000 * t.val + p.val, hr⟩ p q ?_ ?_ ?_ ?_ ?_ ?_ ?_ ?_ ?_
  · intro a
    show A0 (((cfg0.win 0).blk t).view.emb (ix2 p a)) = A0 (ix2 (⟨2000 * t.val + p.val, hr⟩ : Fin 100000) a)
    refine congrArg _ (funext fun d => Fin.ext ?_)
    match d with
    | ⟨0, _⟩ => show win0_0.index t (0 : Fin 2) * 2000 + 1 * p.val = 2000 * t.val + p.val; omega
    | ⟨1, _⟩ => show win0_0.index t (1 : Fin 2) * 128 + 1 * a.val = a.val; omega
  · intro a
    show A1 (((cfg0.win 1).blk t).view.emb (ix2 p a)) = A1 (ix2 (⟨2000 * t.val + p.val, hr⟩ : Fin 100000) a)
    refine congrArg _ (funext fun d => Fin.ext ?_)
    match d with
    | ⟨0, _⟩ => show win0_1.index t (0 : Fin 2) * 2000 + 1 * p.val = 2000 * t.val + p.val; omega
    | ⟨1, _⟩ => show win0_1.index t (1 : Fin 2) * 128 + 1 * a.val = a.val; omega
  · intro a
    show A2 (((cfg0.win 2).blk t).view.emb (ix2 p a)) = A2 (ix2 (⟨2000 * t.val + p.val, hr⟩ : Fin 100000) a)
    refine congrArg _ (funext fun d => Fin.ext ?_)
    match d with
    | ⟨0, _⟩ => show win0_2.index t (0 : Fin 2) * 2000 + 1 * p.val = 2000 * t.val + p.val; omega
    | ⟨1, _⟩ => show win0_2.index t (1 : Fin 2) * 128 + 1 * a.val = a.val; omega
  · intro a k
    show A3 (((cfg0.win 3).blk t).view.emb (ix2 a k)) = A3 (ix2 a k)
    refine congrArg _ (funext fun d => Fin.ext ?_)
    match d with
    | ⟨0, _⟩ => show win0_3.index t (0 : Fin 2) * 128 + 1 * a.val = a.val; omega
    | ⟨1, _⟩ => show win0_3.index t (1 : Fin 2) * 128 + 1 * k.val = k.val; omega
  · intro a k
    show A4 (((cfg0.win 4).blk t).view.emb (ix2 a k)) = A4 (ix2 a k)
    refine congrArg _ (funext fun d => Fin.ext ?_)
    match d with
    | ⟨0, _⟩ => show win0_4.index t (0 : Fin 2) * 128 + 1 * a.val = a.val; omega
    | ⟨1, _⟩ => show win0_4.index t (1 : Fin 2) * 128 + 1 * k.val = k.val; omega
  · intro a k
    show A5 (((cfg0.win 5).blk t).view.emb (ix2 a k)) = A5 (ix2 a k)
    refine congrArg _ (funext fun d => Fin.ext ?_)
    match d with
    | ⟨0, _⟩ => show win0_5.index t (0 : Fin 2) * 128 + 1 * a.val = a.val; omega
    | ⟨1, _⟩ => show win0_5.index t (1 : Fin 2) * 128 + 1 * k.val = k.val; omega
  · intro k
    show A6 (((cfg0.win 6).blk t).view.emb (ix2 (0 : Fin 1) k)) = A6 (ix2 (0 : Fin 1) k)
    refine congrArg _ (funext fun d => Fin.ext ?_)
    match d with
    | ⟨0, _⟩ => show win0_6.index t (0 : Fin 2) * 1 + 1 * 0 = 0; omega
    | ⟨1, _⟩ => show win0_6.index t (1 : Fin 2) * 128 + 1 * k.val = k.val; omega
  · intro k j
    show A7 (((cfg0.win 7).blk t).view.emb (ix2 k j)) = A7 (ix2 k j)
    refine congrArg _ (funext fun d => Fin.ext ?_)
    match d with
    | ⟨0, _⟩ => show win0_7.index t (0 : Fin 2) * 128 + 1 * k.val = k.val; omega
    | ⟨1, _⟩ => show win0_7.index t (1 : Fin 2) * 40 + 1 * j.val = j.val; omega
  · intro j
    show A8 (((cfg0.win 8).blk t).view.emb (ix2 (0 : Fin 1) j)) = A8 (ix2 (0 : Fin 1) j)
    refine congrArg _ (funext fun d => Fin.ext ?_)
    match d with
    | ⟨0, _⟩ => show win0_8.index t (0 : Fin 2) * 1 + 1 * 0 = 0; omega
    | ⟨1, _⟩ => show win0_8.index t (1 : Fin 2) * 40 + 1 * j.val = j.val; omega

variable (m : (ℓ : Loc nD τ sig) → Buf (Elt Ideal) ℓ) (ρ : Dev nD → PrngReg)

/-- The result array from the arrays as the region finds them. -/
def headOf (c : Dev nD) : S100000x40.Idx → EReal :=
  headArrOf (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))

set_option maxHeartbeats 1000000 in
/-- WHAT POINT `t` WRITES BACK is block `t` of `headOf`. -/
theorem flushed_eq (c : Dev nD) (t : Fin cfg0.N) :
    (dats m 0 c).flushed 9 t = ((cfg0.win 9).blk t).view.read (Elt Ideal) (headOf m c) := by
  rw [flushed9]
  unfold out0_9
  simp only [View.ld_unit_zero (S := S2000x128) origin2, View.ld_unit_zero (S := S128x128) origin2,
    View.ld_unit_zero (S := S1x128) origin2, View.ld_unit_zero (S := S128x40) origin2, View.ld_unit_zero (S := S1x40) origin2]
  rw [show View.canon [⟨r0_5, k0_pay1 (k0_pay2 (iblk m c 0 t) (iblk m c 1 t) (iblk m c 2 t) (iblk m c 3 t) (iblk m c 4 t) (iblk m c 5 t) (iblk m c 6 t) (iblk m c 7 t) (iblk m c 8 t)) (k0_pay3 (iblk m c 0 t) (iblk m c 1 t) (iblk m c 2 t) (iblk m c 3 t) (iblk m c 4 t) (iblk m c 5 t) (iblk m c 6 t) (iblk m c 7 t) (iblk m c 8 t))⟩]
      = E9 (iblk m c 0 t) (iblk m c 1 t) (iblk m c 2 t) (iblk m c 3 t) (iblk m c 4 t) (iblk m c 5 t) (iblk m c 6 t) (iblk m c 7 t) (iblk m c 8 t)
    from funext (canon9_eq (F := Ideal) (iblk m c 0 t) (iblk m c 1 t) (iblk m c 2 t) (iblk m c 3 t) (iblk m c 4 t) (iblk m c 5 t) (iblk m c 6 t) (iblk m c 7 t) (iblk m c 8 t))]
  unfold iblk headOf
  exact block_of_arrays (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8)) t

/-- An index of the result array is in point `t`'s block iff each coordinate is in the block's range on its axis. -/
theorem mem_block (t : Fin cfg0.N) (i : S100000x40.Idx) :
    i ∈ ((cfg0.win 9).blk t).view.set ↔ ∀ a : Fin 2, win0_9.index t a * S2000x40.size a ≤ (i a).val ∧ (i a).val < win0_9.index t a * S2000x40.size a + S2000x40.size a := by
  show i ∈ ((View.whole main_v79).slice (win0_9.rect t)).set ↔ _
  rw [View.set_slice_whole, Rect.mem_set_unit]
  exact Iff.rfl

/-- Every block row of the result is some point's. -/
theorem index_onto : ∀ q0 : Fin 50, ∃ t : Fin cfg0.N, win0_9.index t = ![q0.val, 0] :=
  (by decide +kernel : ∀ q0 : Fin 50, ∃ t : Fin grid0.N, win0_9.index t = ![q0.val, 0])

/-- The 50 blocks cover the result array: row `r` is in the block of point `r / 2000`. -/
theorem covered (i : S100000x40.Idx) : ∃ t : Fin cfg0.N, (cfg0.win 9).flush t = true ∧ i ∈ ((cfg0.win 9).blk t).view.set := by
  have hi0 : (i 0).val < 100000 := (i 0).isLt
  have hi1 : (i 1).val < 40 := (i 1).isLt
  obtain ⟨t, ht⟩ := index_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_block]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 40 ≤ (i 1).val ∧ (i 1).val < win0_9.index t (1 : Fin 2) * 40 + 40; omega

/-- THE RESULT ARRAY after the run is `headOf`. -/
theorem final (c : Dev nD) : (dats m 0 c).arrAt 9 cfg0.N = headOf m c :=
  (dats m 0 c).arrAt_eq_of_cover 9 (headOf m c) (fun t _ => flushed_eq m c t) covered

end Cert.KernelIdeal.Head

end
-- ==== Proof.KernelFold.lean ====
/-
  What the kernel's region finds in its operand arrays.

  Before the one region, @main of the kernel runs 112 host operations: the same graph normalisation as the reference
  (operations 1–74: the rescaled Laplacian's edge weights and the two index columns with the self loops appended) and then the
  two propagations and the two bias rows (75–112). Read a stretch at a time over an arbitrary valuation, the region finds
  the first hop, the second hop and the two bias rows at the reference's own named stages of the arguments — the two
  programs spell these operations alike, so each reading ends by comparing two spellings of one term.
-/
import proofs.«125074_j73753178407276_1_alg».proof.Proof.Gen.KernelIdeal.Frame
import proofs.«125074_j73753178407276_1_alg».proof.Proof.ReferenceRead
import proofs.«125074_j73753178407276_1_alg».proof.Proof.LibFoldRead

noncomputable section

namespace Cert.KernelIdeal.Prelude

open Cert.KernelIdeal Cert.KernelIdeal.Gen Idealize.ShloMosaic Idealize.ShloMosaic.TcCoe Idealize.SL.Sem Idealize.ShloMosaic.StableHlo

variable {F : FTy → Type} [FloatOps F]

/-- The normalisation: host operations 1–74. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_v1 main_v3 main_v4 (cmpi .eq : (⟨S1600000, .i32⟩ : BufTy).Contents (Elt F) → (⟨S1600000, .i32⟩ : BufTy).Contents (Elt F) → (⟨S1600000, .i1⟩ : BufTy).Contents (Elt F)),
    StableHlo.nullary main_cst (constant S_ .f32 0x00000000#32),
    StableHlo.nullary main_cst_0 (constant S_ .f32 0x3F800000#32),
    StableHlo.TRef.unary (.of main_cst : StableHlo.TRef sig ⟨S_, .f32⟩) (.of main_call0_v0 : StableHlo.TRef sig ⟨S1600000, .f32⟩) (broadcastInDim S1600000 ![] bcast_S_S1600000),
    StableHlo.TRef.unary (.of main_cst_0 : StableHlo.TRef sig ⟨S_, .f32⟩) (.of main_call0_v1 : StableHlo.TRef sig ⟨S1600000, .f32⟩) (broadcastInDim S1600000 ![] bcast_S_S1600000),
    StableHlo.TRef.ternary (.of main_v4 : StableHlo.TRef sig ⟨S1600000, .i1⟩) (.of main_call0_v0 : StableHlo.TRef sig ⟨S1600000, .f32⟩) (.of main_call0_v1 : StableHlo.TRef sig ⟨S1600000, .f32⟩) (.of main_v5 : StableHlo.TRef sig ⟨S1600000, .f32⟩) select,
    StableHlo.unary main_v5 main_v6 (id : (⟨S1600000, .f32⟩ : BufTy).Contents (Elt F) → (⟨S1600000, .f32⟩ : BufTy).Contents (Elt F)),
    StableHlo.nullary main_cst_1 (constant S_ .f32 0x00000000#32),
    StableHlo.unary main_cst_1 main_v7 (broadcastInDim S100000 ![] bcast_S_S100000 : (⟨S_, .f32⟩ : BufTy).Contents (Elt F) → (⟨S100000, .f32⟩ : BufTy).Contents (Elt F)),
    StableHlo.unary main_v1 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x00000000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v9 main_v10 main_v11 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0xBF000000#32),
    StableHlo.unary main_cst_3 main_v12 (broadcastInDim S100000 ![] bcast_S_S100000 : (⟨S_, .f32⟩ : BufTy).Contents (Elt F) → (⟨S100000, .f32⟩ : BufTy).Contents (Elt F)),
    StableHlo.binary main_v9 main_v12 main_v13 (Host.powf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v11 : StableHlo.TRef sig ⟨S100000, .i1⟩) (.of main_v13 : StableHlo.TRef sig ⟨S100000, .f32⟩) (.of main_call1_v1 : StableHlo.TRef sig ⟨S100000, .f32⟩) (.of main_v14 : StableHlo.TRef sig ⟨S100000, .f32⟩) select,
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.unary main_v21 main_v22 (Host.negf : (⟨S1600000, .f32⟩ : BufTy).Contents (Elt F) → (⟨S1600000, .f32⟩ : BufTy).Contents (Elt F)),
    StableHlo.binary main_v22 main_v6 main_v23 (mulf : (⟨S1600000, .f32⟩ : BufTy).Contents (Elt F) → (⟨S1600000, .f32⟩ : BufTy).Contents (Elt F) → (⟨S1600000, .f32⟩ : BufTy).Contents (Elt F)),
    StableHlo.nullary main_c_6 (constantI S_ 32 0#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v26 (broadcastInDim S1600000 ![] bcast_S_S1600000 : (⟨S_, .i32⟩ : BufTy).Contents (Elt F) → (⟨S1600000, .i32⟩ : BufTy).Contents (Elt F)),
    StableHlo.binary main_v3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v14 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v23 main_v30 main_v31 (mulf : (⟨S1600000, .f32⟩ : BufTy).Contents (Elt F) → (⟨S1600000, .f32⟩ : BufTy).Contents (Elt F) → (⟨S1600000, .f32⟩ : BufTy).Contents (Elt F)),
    StableHlo.nullary main_cst_8 (constant S_ .f32 0x3F800000#32),
    StableHlo.unary main_cst_8 main_v32 (broadcastInDim S100000 ![] bcast_S_S100000 : (⟨S_, .f32⟩ : BufTy).Contents (Elt F) → (⟨S100000, .f32⟩ : BufTy).Contents (Elt F)),
    StableHlo.binary main_v31 main_v32 main_v33 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_9 (constant S_ .f32 0xFF800000#32),
    StableHlo.binary main_v33 main_cst_9 main_v34 ((fun x v => Host.reduce FloatOps.maximumf x v reducesTo_S1700000_S_d0 h_S_) : (⟨S1700000, .f32⟩ : BufTy).Contents (Elt F) → (⟨S_, .f32⟩ : BufTy).Contents (Elt F) → (⟨S_, .f32⟩ : BufTy).Contents (Elt F)),
    StableHlo.nullary main_cst_10 (constant S_ .f32 0x40000000#32),
    StableHlo.binary main_cst_10 main_v34 main_v35 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x40000000#32),
    StableHlo.unary main_cst_11 main_v36 (broadcastInDim S1700000 ![] bcast_S_S1700000 : (⟨S_, .f32⟩ : BufTy).Contents (Elt F) → (⟨S1700000, .f32⟩ : BufTy).Contents (Elt F)),
    StableHlo.binary main_v36 main_v33 main_v37 (mulf : (⟨S1700000, .f32⟩ : BufTy).Contents (Elt F) → (⟨S1700000, .f32⟩ : BufTy).Contents (Elt F) → (⟨S1700000, .f32⟩ : BufTy).Contents (Elt F)),
    StableHlo.unary main_v35 main_v38 (broadcastInDim S1700000 ![] bcast_S_S1700000 : (⟨S_, .f32⟩ : BufTy).Contents (Elt F) → (⟨S1700000, .f32⟩ : BufTy).Contents (Elt F)),
    StableHlo.binary main_v37 main_v38 main_v39 (Host.divf : (⟨S1700000, .f32⟩ : BufTy).Contents (Elt F) → (⟨S1700000, .f32⟩ : BufTy).Contents (Elt F) → (⟨S1700000, .f32⟩ : BufTy).Contents (Elt F)),
    StableHlo.TRef.unary (.of main_v39 : StableHlo.TRef sig ⟨S1700000, .f32⟩) (.of main_call2_v0 : StableHlo.TRef sig ⟨S1700000, .f32⟩) Host.absf,
    StableHlo.TRef.nullary (.of main_call2_cst : StableHlo.TRef sig ⟨S_, .f32⟩) (constant S_ .f32 0x7F800000#32),
    StableHlo.TRef.unary (.of main_call2_cst : StableHlo.TRef sig ⟨S_, .f32⟩) (.of main_call2_v1 : StableHlo.TRef sig ⟨S1700000, .f32⟩) (broadcastInDim S1700000 ![] bcast_S_S1700000),
    StableHlo.TRef.binary (.of main_call2_v0 : StableHlo.TRef sig ⟨S1700000, .f32⟩) (.of main_call2_v1 : StableHlo.TRef sig ⟨S1700000, .f32⟩) (.of main_v40 : StableHlo.TRef sig ⟨S1700000, .i1⟩) (cmpf .oeq),
    StableHlo.nullary main_cst_12 (constant S_ .f32 0x00000000#32),
    StableHlo.TRef.unary (.of main_cst_12 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S1700000, .f32⟩) (broadcastInDim S1700000 ![] bcast_S_S1700000),
    StableHlo.TRef.ternary (.of main_v40 : StableHlo.TRef sig ⟨S1700000, .i1⟩) (.of main_call3_v1 : StableHlo.TRef sig ⟨S1700000, .f32⟩) (.of main_v39 : StableHlo.TRef sig ⟨S1700000, .f32⟩) (.of main_v41 : StableHlo.TRef sig ⟨S1700000, .f32⟩) select,
    StableHlo.nullary main_c_13 (constantI S_ 32 1600000#32),
    StableHlo.unary main_c_13 main_v42 (broadcastInDim S1 ![] bcast_S_S1 : (⟨S_, .i32⟩ : BufTy).Contents (Elt F) → (⟨S1, .i32⟩ : BufTy).Contents (Elt F)),
    StableHlo.nullary main_cst_14 (constant S_ .f32 0xBF800000#32),
    StableHlo.unary main_cst_14 main_v43 (broadcastInDim S100000 ![] bcast_S_S100000 : (⟨S_, .f32⟩ : BufTy).Contents (Elt F) → (⟨S100000, .f32⟩ : BufTy).Contents (Elt F)),
    StableHlo.ternary main_v41 main_v42 main_v43 main_v44 ((fun x i u => Host.scatter scatter_S1700000_S1_S100000_0_n_0_0 FloatOps.addf x i u) : (⟨S1700000, .f32⟩ : BufTy).Contents (Elt F) → (⟨S1, .i32⟩ : BufTy).Contents (Elt F) → (⟨S100000, .f32⟩ : BufTy).Contents (Elt F) → (⟨S1700000, .f32⟩ : BufTy).Contents (Elt F)),
    StableHlo.nullary main_v45 (iotaInDim S100000 32 0),
    StableHlo.binary main_v1 main_v45 main_v46 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v45 main_v47 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The propagations and the bias rows: host operations 75–112. -/
abbrev opsB : List (HloOp τ sig (Elt F)) :=
  [ StableHlo.unary main_v44 main_v48 (broadcastInDim S1700000x1 ![0] bcast_S1700000_S1700000x1_0 : (⟨S1700000, .f32⟩ : BufTy).Contents (Elt F) → (⟨S1700000x1, .f32⟩ : BufTy).Contents (Elt F)),
    StableHlo.nullary main_c_15 (constantI S_ 32 0#32),
    StableHlo.unary main_c_15 main_v49 (broadcastInDim S1700000 ![] bcast_S_S1700000 : (⟨S_, .i32⟩ : BufTy).Contents (Elt F) → (⟨S1700000, .i32⟩ : BufTy).Contents (Elt F)),
    StableHlo.binary main_v46 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v51 (broadcastInDim S1700000 ![] bcast_S_S1700000 : (⟨S_, .i32⟩ : BufTy).Contents (Elt F) → (⟨S1700000, .i32⟩ : BufTy).Contents (Elt F)),
    StableHlo.binary main_v46 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v46 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_arg0 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v48 main_v56 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v56 main_v55 main_v57 (mulf : (⟨S1700000x128, .f32⟩ : BufTy).Contents (Elt F) → (⟨S1700000x128, .f32⟩ : BufTy).Contents (Elt F) → (⟨S1700000x128, .f32⟩ : BufTy).Contents (Elt F)),
    StableHlo.nullary main_cst_17 (constant S_ .f32 0x00000000#32),
    StableHlo.unary main_cst_17 main_v58 (broadcastInDim S100000x128 ![] bcast_S_S100000x128 : (⟨S_, .f32⟩ : BufTy).Contents (Elt F) → (⟨S100000x128, .f32⟩ : BufTy).Contents (Elt F)),
    StableHlo.unary main_v47 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_v44 main_v61 (broadcastInDim S1700000x1 ![0] bcast_S1700000_S1700000x1_0 : (⟨S1700000, .f32⟩ : BufTy).Contents (Elt F) → (⟨S1700000x1, .f32⟩ : BufTy).Contents (Elt F)),
    StableHlo.nullary main_c_18 (constantI S_ 32 0#32),
    StableHlo.unary main_c_18 main_v62 (broadcastInDim S1700000 ![] bcast_S_S1700000 : (⟨S_, .i32⟩ : BufTy).Contents (Elt F) → (⟨S1700000, .i32⟩ : BufTy).Contents (Elt F)),
    StableHlo.binary main_v46 main_v62 main_v63 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v64 (broadcastInDim S1700000 ![] bcast_S_S1700000 : (⟨S_, .i32⟩ : BufTy).Contents (Elt F) → (⟨S1700000, .i32⟩ : BufTy).Contents (Elt F)),
    StableHlo.binary main_v46 main_v64 main_v65 (addi : (⟨S1700000, .i32⟩ : BufTy).Contents (Elt F) → (⟨S1700000, .i32⟩ : BufTy).Contents (Elt F) → (⟨S1700000, .i32⟩ : BufTy).Contents (Elt F)),
    StableHlo.ternary main_v63 main_v65 main_v46 main_v66 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v66 main_v67 (broadcastInDim S1700000x1 ![0] bcast_S1700000_S1700000x1_0 : (⟨S1700000, .i32⟩ : BufTy).Contents (Elt F) → (⟨S1700000x1, .i32⟩ : BufTy).Contents (Elt F)),
    StableHlo.binary main_v60 main_v67 main_v68 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v61 main_v69 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v69 main_v68 main_v70 (mulf : (⟨S1700000x128, .f32⟩ : BufTy).Contents (Elt F) → (⟨S1700000x128, .f32⟩ : BufTy).Contents (Elt F) → (⟨S1700000x128, .f32⟩ : BufTy).Contents (Elt F)),
    StableHlo.nullary main_cst_20 (constant S_ .f32 0x00000000#32),
    StableHlo.unary main_cst_20 main_v71 (broadcastInDim S100000x128 ![] bcast_S_S100000x128 : (⟨S_, .f32⟩ : BufTy).Contents (Elt F) → (⟨S100000x128, .f32⟩ : BufTy).Contents (Elt F)),
    StableHlo.unary main_v47 main_v72 (broadcastInDim S1700000x1 ![0] bcast_S1700000_S1700000x1_0 : (⟨S1700000, .i32⟩ : BufTy).Contents (Elt F) → (⟨S1700000x1, .i32⟩ : BufTy).Contents (Elt F)),
    StableHlo.ternary main_v71 main_v72 main_v70 main_v73 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_21 (constant S_ .f32 0x40000000#32),
    StableHlo.unary main_cst_21 main_v74 (broadcastInDim S100000x128 ![] bcast_S_S100000x128 : (⟨S_, .f32⟩ : BufTy).Contents (Elt F) → (⟨S100000x128, .f32⟩ : BufTy).Contents (Elt F)),
    StableHlo.binary main_v74 main_v73 main_v75 (mulf : (⟨S100000x128, .f32⟩ : BufTy).Contents (Elt F) → (⟨S100000x128, .f32⟩ : BufTy).Contents (Elt F) → (⟨S100000x128, .f32⟩ : BufTy).Contents (Elt F)),
    StableHlo.binary main_v75 main_arg0 main_v76 (subf : (⟨S100000x128, .f32⟩ : BufTy).Contents (Elt F) → (⟨S100000x128, .f32⟩ : BufTy).Contents (Elt F) → (⟨S100000x128, .f32⟩ : BufTy).Contents (Elt F)),
    StableHlo.reshape main_arg5 main_v77 rfl shapeCasts_S128_S1x128,
    StableHlo.reshape main_arg7 main_v78 rfl shapeCasts_S40_S1x40 ]

set_option maxRecDepth 8192 in
theorem hostOps_eq : List.flatten [(hostOps0 : List (HloOp τ sig (Elt F))), hostOps0_1, hostOps0_2, hostOps0_3, hostOps0_4, hostOps0_5, hostOps0_6, hostOps0_7, hostOps0_8]
    = opsA ++ opsB := rfl

/-- The buffers the normalisation writes. -/
abbrev writtenA : List (Ref sig .tc) := [main_v0, main_v1, main_v2, main_v3, main_v4, main_cst, main_cst_0, main_call0_v0, main_call0_v1, main_v5, main_v6, main_cst_1, main_v7, main_v8, main_v9, main_cst_2, main_v10, main_v11, main_cst_3, main_v12, main_v13, main_cst_4, main_call1_v0, main_call1_v1, main_v14, main_c, main_v15, main_v16, main_c_5, main_v17, main_v18, main_v19, main_v20, main_v21, main_v22, main_v23, main_c_6, main_v24, main_v25, main_c_7, main_v26, main_v27, main_v28, main_v29, main_v30, main_v31, main_cst_8, main_v32, main_v33, main_cst_9, main_v34, main_cst_10, main_v35, main_cst_11, main_v36, main_v37, main_v38, main_v39, main_call2_v0, main_call2_cst, main_call2_v1, main_v40, main_cst_12, main_call3_v0, main_call3_v1, main_v41, main_c_13, main_v42, main_cst_14, main_v43, main_v44, main_v45, main_v46, main_v47]

theorem opsA_writes : (opsA : List (HloOp τ sig (Elt F))).Forall fun op => op.writes ⊆ (writtenA.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

/-- A buffer the normalisation does not write keeps its contents. -/
theorem keepA (W : Valuation τ sig (Elt F)) (r : Ref sig .tc) (h : r ∉ writtenA) :
    after opsA W (Proc.devRef .tc r) = W (Proc.devRef .tc r) := after_of_writes_sub opsA W opsA_writes h

set_option maxRecDepth 100000 in
set_option maxHeartbeats 4000000 in
/-- The normalisation leaves the rescaled edge weights in `main_v44`, -/
theorem readA_weights (W : Valuation τ sig (Elt F)) :
    after opsA W (Proc.devRef .tc main_v44) = Cert.ReferenceIdeal.Read.val_main_v44 (F := F) (W (Proc.devRef .tc main_arg1)) := by
  after_results_simp
  simp only [TRef.toBuf, TRef.ofBuf, cast_eq]
  rfl

set_option maxRecDepth 100000 in
set_option maxHeartbeats 4000000 in
/-- the source column with the self loops appended in `main_v46`, -/
theorem readA_src (W : Valuation τ sig (Elt F)) :
    after opsA W (Proc.devRef .tc main_v46) = Cert.ReferenceIdeal.Read.val_main_v46 (F := F) (W (Proc.devRef .tc main_arg1)) := by
  after_results_simp
  rfl

set_option maxRecDepth 100000 in
set_option maxHeartbeats 4000000 in
/-- and the destination column in `main_v47`. -/
theorem readA_dst (W : Valuation τ sig (Elt F)) :
    after opsA W (Proc.devRef .tc main_v47) = Cert.ReferenceIdeal.Read.val_main_v47 (F := F) (W (Proc.devRef .tc main_arg1)) := by
  after_results_simp
  rfl

set_option maxRecDepth 100000 in
set_option maxHeartbeats 4000000 in
/-- From those three and the features, the second stretch leaves the first hop in `main_v60` -/
theorem readB_hop1 (W : Valuation τ sig (Elt F)) (x0 : (⟨S100000x128, .f32⟩ : BufTy).Contents (Elt F)) (x1 : (⟨S2x1600000, .i32⟩ : BufTy).Contents (Elt F))
    (hw : (W (Proc.devRef .tc main_v44)) = Cert.ReferenceIdeal.Read.val_main_v44 (F := F) x1) (hs : (W (Proc.devRef .tc main_v46)) = Cert.ReferenceIdeal.Read.val_main_v46 (F := F) x1)
    (hd : (W (Proc.devRef .tc main_v47)) = Cert.ReferenceIdeal.Read.val_main_v47 (F := F) x1) (h0 : (W (Proc.devRef .tc main_arg0)) = x0) :
    after opsB W (Proc.devRef .tc main_v60) = Cert.ReferenceIdeal.Read.val_main_v61 (F := F) x0 x1 := by
  after_results_simp
  rw [hw, hs, hd, h0]
  rfl

set_option maxRecDepth 100000 in
set_option maxHeartbeats 4000000 in
/-- and the second hop in `main_v76`. -/
theorem readB_hop2 (W : Valuation τ sig (Elt F)) (x0 : (⟨S100000x128, .f32⟩ : BufTy).Contents (Elt F)) (x1 : (⟨S2x1600000, .i32⟩ : BufTy).Contents (Elt F))
    (hw : (W (Proc.devRef .tc main_v44)) = Cert.ReferenceIdeal.Read.val_main_v44 (F := F) x1) (hs : (W (Proc.devRef .tc main_v46)) = Cert.ReferenceIdeal.Read.val_main_v46 (F := F) x1)
    (hd : (W (Proc.devRef .tc main_v47)) = Cert.ReferenceIdeal.Read.val_main_v47 (F := F) x1) (h0 : (W (Proc.devRef .tc main_arg0)) = x0) :
    after opsB W (Proc.devRef .tc main_v76) = Cert.ReferenceIdeal.Read.val_main_v79 (F := F) x0 x1 := by
  after_results_simp
  rw [hw, hs, hd, h0]
  rfl

set_option maxRecDepth 100000 in
set_option maxHeartbeats 4000000 in
/-- The bias of the hidden layer as one row, [128] → [1,128], in `main_v77`. -/
theorem readB_bias (W : Valuation τ sig (Elt F)) (x5 : (⟨S128, .f32⟩ : BufTy).Contents (Elt F)) (h5 : (W (Proc.devRef .tc main_arg5)) = x5) :
    after opsB W (Proc.devRef .tc main_v77) = shapeCast S1x128 x5 shapeCasts_S128_S1x128 := by
  after_results_simp
  rw [h5]
  rfl

set_option maxRecDepth 100000 in
set_option maxHeartbeats 4000000 in
/-- The classifier's bias as one row, [40] → [1,40], in `main_v78`. -/
theorem readB_fcBias (W : Valuation τ sig (Elt F)) (x7 : (⟨S40, .f32⟩ : BufTy).Contents (Elt F)) (h7 : (W (Proc.devRef .tc main_arg7)) = x7) :
    after opsB W (Proc.devRef .tc main_v78) = shapeCast S1x40 x7 shapeCasts_S40_S1x40 := by
  after_results_simp
  rw [h7]
  rfl

variable (m : (ℓ : Loc nD τ sig) → Buf (Elt F) ℓ)

/-- The valuation the region is entered with, as the fold of the two stretches. -/
theorem V_eq (c : Dev nD) (b : Ref sig .tc) : V m c b = after opsB (after opsA (fun b => m (c, b))) (Proc.devRef .tc b) := by
  show after (List.flatten [hostOps0, hostOps0_1, hostOps0_2, hostOps0_3, hostOps0_4, hostOps0_5, hostOps0_6, hostOps0_7, hostOps0_8]) (fun b => m (c, b)) (Proc.devRef .tc b) = _
  rw [hostOps_eq, after_append]

/-- THE FIRST HOP as the region finds it. -/
theorem hop1 (c : Dev nD) : V m c main_v60 = Cert.ReferenceIdeal.Read.val_main_v61 (F := F) (m ((c : Thread nD τ).loc main_arg0)) (m ((c : Thread nD τ).loc main_arg1)) := by
  rw [V_eq]
  exact readB_hop1 _ _ _ (readA_weights _) (readA_src _) (readA_dst _) (keepA _ main_arg0 (by decide))

/-- THE SECOND HOP as the region finds it. -/
theorem hop2 (c : Dev nD) : V m c main_v76 = Cert.ReferenceIdeal.Read.val_main_v79 (F := F) (m ((c : Thread nD τ).loc main_arg0)) (m ((c : Thread nD τ).loc main_arg1)) := by
  rw [V_eq]
  exact readB_hop2 _ _ _ (readA_weights _) (readA_src _) (readA_dst _) (keepA _ main_arg0 (by decide))

/-- The hidden layer's bias row as the region finds it. -/
theorem biasRow (c : Dev nD) : V m c main_v77 = shapeCast S1x128 (m ((c : Thread nD τ).loc main_arg5)) shapeCasts_S128_S1x128 := by
  rw [V_eq]
  exact readB_bias _ _ (keepA _ main_arg5 (by decide))

/-- The classifier's bias row as the region finds it. -/
theorem fcBiasRow (c : Dev nD) : V m c main_v78 = shapeCast S1x40 (m ((c : Thread nD τ).loc main_arg7)) shapeCasts_S40_S1x40 := by
  rw [V_eq]
  exact readB_fcBias _ _ (keepA _ main_arg7 (by decide))

end Cert.KernelIdeal.Prelude

end
-- ==== Proof.KernelResult.lean ====
/-
  The kernel's result array as a function of the arguments.

  The region finds the features as launched, the two hop arrays at the reference's named stages, the weights as launched and
  the two biases cast to one row each; a bias cast to one row reads, at (0, k), the bias at k. So the array the kernel's run
  ends with — the head of the nine arrays the region finds — is the reference's result function of the eight arguments.
-/
import proofs.«125074_j73753178407276_1_alg».proof.Proof.KernelArray
import proofs.«125074_j73753178407276_1_alg».proof.Proof.KernelFold
import proofs.«125074_j73753178407276_1_alg».proof.Proof.ReferenceHead
import Idealize.ShloMosaic.Lib.ValueLayout

noncomputable section

namespace Cert.KernelIdeal.Head

open Cert.KernelIdeal Cert.KernelIdeal.Gen Cert.KernelIdeal.Value Idealize.ShloMosaic Idealize.ShloMosaic.TcCoe Idealize.SL.Sem
open Idealize.ShloMosaic.ValueIdx Cert.ChebHead

/-- Equal arrays give equal heads. -/
theorem headArrOf_congr {A0 B0 A1 B1 A2 B2 : S100000x128.Idx → EReal} {A3 B3 A4 B4 A5 B5 : S128x128.Idx → EReal}
    {A6 B6 : S1x128.Idx → EReal} {A7 B7 : S128x40.Idx → EReal} {A8 B8 : S1x40.Idx → EReal}
    (h0 : A0 = B0) (h1 : A1 = B1) (h2 : A2 = B2) (h3 : A3 = B3) (h4 : A4 = B4) (h5 : A5 = B5) (h6 : A6 = B6) (h7 : A7 = B7)
    (h8 : A8 = B8) : headArrOf A0 A1 A2 A3 A4 A5 A6 A7 A8 = headArrOf B0 B1 B2 B3 B4 B5 B6 B7 B8 := by
  subst h0 h1 h2 h3 h4 h5 h6 h7 h8
  rfl

/-- With the two biases given as vectors cast to one row each, the head reads the biases at the column. -/
theorem headArrOf_biasRows (A0 A1 A2 : S100000x128.Idx → EReal) (A3 A4 A5 : S128x128.Idx → EReal) (b : S128.Idx → EReal)
    (A7 : S128x40.Idx → EReal) (fb : S40.Idx → EReal) (hb : S128.ShapeCasts S1x128) (hf : S40.ShapeCasts S1x40) :
    headArrOf A0 A1 A2 A3 A4 A5 (shapeCast S1x128 b hb) A7 (shapeCast S1x40 fb hf) = fun i =>
      headArr (fun r a => A0 (ix2 r a)) (fun r a => A1 (ix2 r a)) (fun r a => A2 (ix2 r a))
        (fun a k => A3 (ix2 a k)) (fun a k => A4 (ix2 a k)) (fun a k => A5 (ix2 a k)) (fun k => b (ix1 k))
        (fun k j => A7 (ix2 k j)) (fun j => fb (ix1 j)) (i 0) (i 1) := by
  unfold headArrOf
  funext i
  have b5 : (fun k : Fin 128 => (shapeCast S1x128 b hb) (ix2 (0 : Fin 1) k)) = fun k => b (ix1 k) :=
    funext fun k => shapeCast_a_1a_apply _ _ 0 k
  have b7 : (fun j : Fin 40 => (shapeCast S1x40 fb hf) (ix2 (0 : Fin 1) j)) = fun j => fb (ix1 j) :=
    funext fun j => shapeCast_a_1a_apply _ _ 0 j
  rw [b5, b7]

variable (m : (ℓ : Loc nD τ sig) → Buf (Elt Ideal) ℓ) (ρ : Dev nD → PrngReg)

set_option maxHeartbeats 2000000 in
/-- THE ARRAY THE KERNEL'S RUN ENDS WITH is the reference's result function of the arguments. -/
theorem headOf_eq (c : Dev nD) :
    headOf m c = Cert.ReferenceIdeal.Head.resultOf (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) :=
  (headArrOf_congr (V_main_arg0 m c) (Cert.KernelIdeal.Prelude.hop1 m c) (Cert.KernelIdeal.Prelude.hop2 m c) (V_main_arg2 m c)
    (V_main_arg3 m c) (V_main_arg4 m c) (Cert.KernelIdeal.Prelude.biasRow m c) (V_main_arg6 m c)
    (Cert.KernelIdeal.Prelude.fcBiasRow m c)).trans
    (headArrOf_biasRows (m ((c : Thread nD τ).loc main_arg0))
      (Cert.ReferenceIdeal.Read.val_main_v61 (F := Ideal) (m ((c : Thread nD τ).loc main_arg0)) (m ((c : Thread nD τ).loc main_arg1)))
      (Cert.ReferenceIdeal.Read.val_main_v79 (F := Ideal) (m ((c : Thread nD τ).loc main_arg0)) (m ((c : Thread nD τ).loc main_arg1)))
      (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      shapeCasts_S128_S1x128 shapeCasts_S40_S1x40)

/-- The kernel's run, read: the result buffer ends at the reference's result function of the arguments, the arguments unchanged. -/
theorem run : θ_run defs (onTc (τ := τ) (main (F := Ideal))) ⟨m, fun _ => 0, ρ⟩ fun r => ∀ c : Dev nD,
      r.2.mem ((c : Thread nD τ).loc main_v79) = Cert.ReferenceIdeal.Head.resultOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (headOf_eq m c)), (h c).2⟩) (run_blocks m ρ)

end Cert.KernelIdeal.Head

end
-- ==== Proof.lean ====
/-
  The Chebyshev graph convolution head: the Pallas kernel against its jnp reference, over the extended reals.

  Both programs first normalise the graph (the rescaled Laplacian's edge weights) and propagate the features twice, with the
  same host operations; the kernel then hands the three hop arrays to one pallas_call that, 2000 nodes at a time, forms
  relu(x0·W0 + x1·W1 + x2·W2 + b), the classifier's logits and their log-softmax, while the reference does the same on the
  host over all 100000 nodes. Over the extended reals a matrix product into a zero accumulator is the plain sum the host's
  dot_general is, narrowing to bf16 is the identity, and the two log-softmaxes are one expression, so the two results are one
  function of the arguments — no law beyond reading each side entry by entry is needed, and the finiteness of the inputs is
  never used.

  The three frames: the kernel's two are the generated frame certificates; the reference's is its run with the result dropped.
  The idealization rewrote nothing, so `preserves` is trivial. `algebraic`: the kernel's run ends with the result array at
  the reference's result function of the arguments (KernelResult.lean), the reference's run with its result buffer at the fold
  of its 140 operations (ReferenceRun.lean), which is its last named stage (ReferenceFold.lean), which is that same function
  (ReferenceHead.lean).
-/
import proofs.«125074_j73753178407276_1_alg».proof.Defs
import proofs.«125074_j73753178407276_1_alg».proof.Proof.Gen.Kernel
import proofs.«125074_j73753178407276_1_alg».proof.Proof.Gen.Kernel.Skeleton
import proofs.«125074_j73753178407276_1_alg».proof.Proof.Gen.Kernel.Launch
import proofs.«125074_j73753178407276_1_alg».proof.Proof.Gen.Kernel.Points
import proofs.«125074_j73753178407276_1_alg».proof.Proof.Gen.Kernel.Frame
import proofs.«125074_j73753178407276_1_alg».proof.Proof.Gen.KernelIdeal
import proofs.«125074_j73753178407276_1_alg».proof.Proof.Gen.KernelIdeal.Skeleton
import proofs.«125074_j73753178407276_1_alg».proof.Proof.Gen.KernelIdeal.Launch
import proofs.«125074_j73753178407276_1_alg».proof.Proof.Gen.KernelIdeal.Points
import proofs.«125074_j73753178407276_1_alg».proof.Proof.Gen.KernelIdeal.Frame
import proofs.«125074_j73753178407276_1_alg».proof.Proof.Gen.ReferenceIdeal
import proofs.«125074_j73753178407276_1_alg».proof.Proof.Gen.Pre_finite_inputs
import proofs.«125074_j73753178407276_1_alg».proof.Proof.Gen.KernelIdeal.Value
import proofs.«125074_j73753178407276_1_alg».proof.Proof.ReferenceRun
import proofs.«125074_j73753178407276_1_alg».proof.Proof.ReferenceFold
import proofs.«125074_j73753178407276_1_alg».proof.Proof.ReferenceHead
import proofs.«125074_j73753178407276_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's result function of the kernel's arguments; the reference's, started from
    memories that agree on the arguments, reads its own arguments there. -/
theorem algebraic : Cert.algebraic_KernelIdeal_ReferenceIdeal := by
  intro m ρ m' ρ' _ hagree
  refine ⟨_, Cert.KernelIdeal.Head.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Fold.fold_eq, Cert.ReferenceIdeal.Head.result_eq]
  show Cert.ReferenceIdeal.Head.resultOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
